-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_arg10 : FVec F S128x64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  main_v48

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_arg10 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) (main_arg10 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 121
  | .vmem => 53
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x128, .f32⟩
  | .hbm, ⟨73, _⟩ => ⟨S1700000x1, .f32⟩
  | .hbm, ⟨74, _⟩ => ⟨S1700000x128, .f32⟩
  | .hbm, ⟨75, _⟩ => ⟨S1700000x128, .f32⟩
  | .hbm, ⟨76, _⟩ => ⟨S_, .f32⟩
  | .hbm, ⟨77, _⟩ => ⟨S100000x128, .f32⟩
  | .hbm, ⟨78, _⟩ => ⟨S1700000x1, .i32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000x128, .f32⟩
  | .hbm, ⟨92, _⟩ => ⟨S1700000x1, .f32⟩
  | .hbm, ⟨93, _⟩ => ⟨S1700000x128, .f32⟩
  | .hbm, ⟨94, _⟩ => ⟨S1700000x128, .f32⟩
  | .hbm, ⟨95, _⟩ => ⟨S_, .f32⟩
  | .hbm, ⟨96, _⟩ => ⟨S100000x128, .f32⟩
  | .hbm, ⟨97, _⟩ => ⟨S1700000x1, .i32⟩
  | .hbm, ⟨98, _⟩ => ⟨S100000x128, .f32⟩
  | .hbm, ⟨99, _⟩ => ⟨S1x128, .f32⟩
  | .hbm, ⟨100, _⟩ => ⟨S100000x128, .f32⟩
  | .hbm, ⟨101, _⟩ => ⟨S100000x64, .f32⟩
  | .hbm, ⟨102, _⟩ => ⟨S_, .i32⟩
  | .hbm, ⟨103, _⟩ => ⟨S1700000, .i32⟩
  | .hbm, ⟨104, _⟩ => ⟨S1700000, .i1⟩
  | .hbm, ⟨105, _⟩ => ⟨S_, .i32⟩
  | .hbm, ⟨106, _⟩ => ⟨S1700000, .i32⟩
  | .hbm, ⟨107, _⟩ => ⟨S1700000, .i32⟩
  | .hbm, ⟨108, _⟩ => ⟨S1700000, .i32⟩
  | .hbm, ⟨109, _⟩ => ⟨S1700000x1, .i32⟩
  | .hbm, ⟨110, _⟩ => ⟨S1700000x64, .f32⟩
  | .hbm, ⟨111, _⟩ => ⟨S1700000x1, .f32⟩
  | .hbm, ⟨112, _⟩ => ⟨S1700000x64, .f32⟩
  | .hbm, ⟨113, _⟩ => ⟨S1700000x64, .f32⟩
  | .hbm, ⟨114, _⟩ => ⟨S_, .f32⟩
  | .hbm, ⟨115, _⟩ => ⟨S100000x64, .f32⟩
  | .hbm, ⟨116, _⟩ => ⟨S1700000x1, .i32⟩
  | .hbm, ⟨117, _⟩ => ⟨S100000x64, .f32⟩
  | .hbm, ⟨118, _⟩ => ⟨S100000x64, .f32⟩
  | .hbm, ⟨119, _⟩ => ⟨S1x64, .f32⟩
  | .hbm, ⟨120, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x64, .f32⟩
  | .local _ .vmem, ⟨39, _⟩ => ⟨S5000x64, .f32⟩
  | .local _ .vmem, ⟨40, _⟩ => ⟨S5000x64, .f32⟩
  | .local _ .vmem, ⟨41, _⟩ => ⟨S5000x128, .f32⟩
  | .local _ .vmem, ⟨42, _⟩ => ⟨S5000x128, .f32⟩
  | .local _ .vmem, ⟨43, _⟩ => ⟨S128x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S1x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_7 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_10 : Ref sig .tc := ⟨.hbm, 83, rfl⟩
abbrev main_v60 : Ref sig .tc := ⟨.hbm, 84, rfl⟩
abbrev main_v61 : Ref sig .tc := ⟨.hbm, 85, rfl⟩
abbrev main_c_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_12 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_13 : Ref sig .tc := ⟨.hbm, 102, rfl⟩
abbrev main_v76 : Ref sig .tc := ⟨.hbm, 103, rfl⟩
abbrev main_v77 : Ref sig .tc := ⟨.hbm, 104, rfl⟩
abbrev main_c_14 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_15 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg2_0 : Ref sig .tc := ⟨.vmem, 44, rfl⟩
abbrev cc7_stg2_1 : Ref sig .tc := ⟨.vmem, 45, rfl⟩
abbrev cc8_stg0_0 : Ref sig .tc := ⟨.vmem, 46, rfl⟩
abbrev cc8_stg0_1 : Ref sig .tc := ⟨.vmem, 47, rfl⟩
abbrev cc8_stg1_0 : Ref sig .tc := ⟨.vmem, 48, rfl⟩
abbrev cc8_stg2_0 : Ref sig .tc := ⟨.vmem, 49, rfl⟩
abbrev cc8_stg2_1 : Ref sig .tc := ⟨.vmem, 50, rfl⟩
abbrev cc8_stg3_0 : Ref sig .tc := ⟨.vmem, 51, rfl⟩
abbrev cc8_stg3_1 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem2_0 : DmaSem sig := 44
abbrev cc7_sem2_1 : DmaSem sig := 45
abbrev cc8_sem0_0 : DmaSem sig := 46
abbrev cc8_sem0_1 : DmaSem sig := 47
abbrev cc8_sem1_0 : DmaSem sig := 48
abbrev cc8_sem2_0 : DmaSem sig := 49
abbrev cc8_sem2_1 : DmaSem sig := 50
abbrev cc8_sem3_0 : DmaSem sig := 51
abbrev cc8_sem3_1 : DmaSem sig := 52

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S5000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x64.size a ≤ S128x64.size a
  hwx7_1 : ∀ i : grid7.Coords, EltTy.bits .f32 = 32 ∨ (Rect.block (s := S128x64) S128x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S100000x64.size a
  hwx7_2 : ∀ i : grid7.Coords, EltTy.bits .f32 = 32 ∨ (Rect.block (s := S100000x64) S5000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x64.size a ≤ S100000x64.size a
  hwx8_2 : ∀ i : grid8.Coords, EltTy.bits .f32 = 32 ∨ (Rect.block (s := S100000x64) S5000x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x64.size a ≤ S100000x64.size a
  hwx8_3 : ∀ i : grid8.Coords, EltTy.bits .f32 = 32 ∨ (Rect.block (s := S100000x64) S5000x64.size (cc8_transform_3 i) (hinb8_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v58) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v58) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v74) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v74) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v75) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v74) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S128x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v89) S5000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v88) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v90) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v89) S5000x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v91) S5000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 138
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S128x64, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S100000, .f32⟩
  | 25 => ⟨S_, .i32⟩
  | 26 => ⟨S1700000, .i32⟩
  | 27 => ⟨S1700000, .i1⟩
  | 28 => ⟨S_, .i32⟩
  | 29 => ⟨S1700000, .i32⟩
  | 30 => ⟨S1700000, .i32⟩
  | 31 => ⟨S1700000, .i32⟩
  | 32 => ⟨S1700000x1, .i32⟩
  | 33 => ⟨S1700000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S100000x128, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000x128, .f32⟩
  | 54 => ⟨S1700000x1, .f32⟩
  | 55 => ⟨S1700000x128, .f32⟩
  | 56 => ⟨S1700000x128, .f32⟩
  | 57 => ⟨S_, .f32⟩
  | 58 => ⟨S100000x128, .f32⟩
  | 59 => ⟨S1700000x1, .i32⟩
  | 60 => ⟨S100000x128, .f32⟩
  | 61 => ⟨S1x128, .f32⟩
  | 62 => ⟨S100000x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000x128, .f32⟩
  | 69 => ⟨S_, .i32⟩
  | 70 => ⟨S1700000, .i32⟩
  | 71 => ⟨S1700000, .i1⟩
  | 72 => ⟨S_, .i32⟩
  | 73 => ⟨S1700000, .i32⟩
  | 74 => ⟨S1700000, .i32⟩
  | 75 => ⟨S1700000, .i32⟩
  | 76 => ⟨S1700000x1, .i32⟩
  | 77 => ⟨S1700000x128, .f32⟩
  | 78 => ⟨S1700000x1, .f32⟩
  | 79 => ⟨S1700000x128, .f32⟩
  | 80 => ⟨S1700000x128, .f32⟩
  | 81 => ⟨S_, .f32⟩
  | 82 => ⟨S100000x128, .f32⟩
  | 83 => ⟨S1700000x1, .i32⟩
  | 84 => ⟨S100000x128, .f32⟩
  | 85 => ⟨S1x128, .f32⟩
  | 86 => ⟨S100000x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S100000x128, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000x128, .f32⟩
  | 102 => ⟨S1700000x1, .f32⟩
  | 103 => ⟨S1700000x128, .f32⟩
  | 104 => ⟨S1700000x128, .f32⟩
  | 105 => ⟨S_, .f32⟩
  | 106 => ⟨S100000x128, .f32⟩
  | 107 => ⟨S1700000x1, .i32⟩
  | 108 => ⟨S100000x128, .f32⟩
  | 109 => ⟨S1x128, .f32⟩
  | 110 => ⟨S100000x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S100000x64, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000x64, .f32⟩
  | 126 => ⟨S1700000x1, .f32⟩
  | 127 => ⟨S1700000x64, .f32⟩
  | _ => ⟨S100000x128, .f32⟩

abbrev hbmTy0_1 (i : Nat) : BufTy := match i % 128 with
  | 0 => ⟨S1700000x64, .f32⟩
  | 1 => ⟨S_, .f32⟩
  | 2 => ⟨S100000x64, .f32⟩
  | 3 => ⟨S1700000x1, .i32⟩
  | 4 => ⟨S100000x64, .f32⟩
  | 5 => ⟨S1x64, .f32⟩
  | 6 => ⟨S100000x64, .f32⟩
  | 7 => ⟨S100000x64, .f32⟩
  | 8 => ⟨S100000x64, .f32⟩
  | 9 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_call0_cst : Ref sig .tc := ⟨.hbm, 65, rfl⟩
abbrev main_call0_v0 : Ref sig .tc := ⟨.hbm, 66, rfl⟩
abbrev main_v45 : Ref sig .tc := ⟨.hbm, 67, rfl⟩
abbrev main_v46 : Ref sig .tc := ⟨.hbm, 68, rfl⟩
abbrev main_c_7 : Ref sig .tc := ⟨.hbm, 69, rfl⟩
abbrev main_v47 : Ref sig .tc := ⟨.hbm, 70, rfl⟩
abbrev main_v48 : Ref sig .tc := ⟨.hbm, 71, rfl⟩
abbrev main_c_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_call1_cst : Ref sig .tc := ⟨.hbm, 89, rfl⟩
abbrev main_call1_v0 : Ref sig .tc := ⟨.hbm, 90, rfl⟩
abbrev main_v64 : Ref sig .tc := ⟨.hbm, 91, rfl⟩
abbrev main_v65 : Ref sig .tc := ⟨.hbm, 92, rfl⟩
abbrev main_c_10 : Ref sig .tc := ⟨.hbm, 93, rfl⟩
abbrev main_v66 : Ref sig .tc := ⟨.hbm, 94, rfl⟩
abbrev main_v67 : Ref sig .tc := ⟨.hbm, 95, rfl⟩
abbrev main_c_11 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_12 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_call2_cst : Ref sig .tc := ⟨.hbm, 113, rfl⟩
abbrev main_call2_v0 : Ref sig .tc := ⟨.hbm, 114, rfl⟩
abbrev main_v83 : Ref sig .tc := ⟨.hbm, 115, rfl⟩
abbrev main_v84 : Ref sig .tc := ⟨.hbm, 116, rfl⟩
abbrev main_c_13 : Ref sig .tc := ⟨.hbm, 117, rfl⟩
abbrev main_v85 : Ref sig .tc := ⟨.hbm, 118, rfl⟩
abbrev main_v86 : Ref sig .tc := ⟨.hbm, 119, rfl⟩
abbrev main_c_14 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_15 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KRun.lean ====
/-
  The run of the program with its result named.  Every weakly fair execution terminates without a fault, leaves the
  argument arrays as launched, and leaves in the result buffer what the last boundary of the run holds there: the
  fifteenth boundary's contents, the array the ninth pipelined call writes back.  The run is the launch over the
  program's segments — six stretches of host operations and nine pipelined calls — and the final thread state, which
  owns every unscoped buffer at the last boundary's contents, is read against the final memory.
-/
import proofs.«104301_j82197084111386_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and the argument arrays end as launched. -/
theorem run_result : θ_run defs (onTc (τ := τ) (main (F := F))) ⟨m, fun _ => 0, ρ⟩ (fun r => ∀ c : Dev nD,
      r.2.mem ((c.tc : Thread nD τ).loc main_v91) = W15 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v91 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c)⟩)

end Cert.KernelIdeal.RunValue

end
-- ==== Proof.Keep.lean ====
/-
  Buffers that a stretch of the program leaves alone.  Between two points of the run a buffer keeps its contents when
  no host operation of the stretch writes it and every pipelined call of the stretch either does not touch it or only
  reads it through an input window: the argument arrays from the launch on, the edge lists and the edge coefficients
  from the first host stretch on, and each layer's activations until the next layer has consumed them.
-/
import proofs.«104301_j82197084111386_1_alg».proof.Proof.Gen.KernelIdeal.Frame

set_option maxRecDepth 16384

noncomputable section

namespace Cert.KernelIdeal.RunValue

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- `main_arg0` is not written between boundaries 0 and 1. -/
theorem keep_arg0_0_1 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg0` is not written between boundaries 0 and 3. -/
theorem keep_arg0_0_3 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg2` is not written between boundaries 0 and 1. -/
theorem keep_arg2_0_1 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` is not written between boundaries 0 and 2. -/
theorem keep_arg3_0_2 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- `main_arg4` is not written between boundaries 0 and 4. -/
theorem keep_arg4_0_4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- `main_arg5` is not written between boundaries 0 and 5. -/
theorem keep_arg5_0_5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- `main_arg6` is not written between boundaries 0 and 7. -/
theorem keep_arg6_0_7 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- `main_arg7` is not written between boundaries 0 and 8. -/
theorem keep_arg7_0_8 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- `main_arg8` is not written between boundaries 0 and 10. -/
theorem keep_arg8_0_10 (c : Dev nD) : W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := W7_of_ne m ρ c main_arg8 (by decide)
    _ = W5 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- `main_arg9` is not written between boundaries 0 and 13. -/
theorem keep_arg9_0_13 (c : Dev nD) : W13 m ρ c (Proc.devRef .tc main_arg9) = m ((c : Thread nD τ).loc main_arg9) :=
  calc W13 m ρ c (Proc.devRef .tc main_arg9)
    _ = W12 m ρ c (Proc.devRef .tc main_arg9) := W13_of_ne m ρ c main_arg9 (by decide)
    _ = W11 m ρ c (Proc.devRef .tc main_arg9) := StableHlo.after_of_forall_not_mem (b := Proc.devRef .tc main_arg9) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg9) := W11_of_ne m ρ c main_arg9 (by decide)
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := W7_of_ne m ρ c main_arg9 (by decide)
    _ = W5 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- `main_arg10` is not written between boundaries 0 and 12. -/
theorem keep_arg10_0_12 (c : Dev nD) : W12 m ρ c (Proc.devRef .tc main_arg10) = m ((c : Thread nD τ).loc main_arg10) :=
  calc W12 m ρ c (Proc.devRef .tc main_arg10)
    _ = W11 m ρ c (Proc.devRef .tc main_arg10) := StableHlo.after_of_forall_not_mem (b := Proc.devRef .tc main_arg10) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg10) := W11_of_ne m ρ c main_arg10 (by decide)
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W6 m ρ c (Proc.devRef .tc main_arg10) := W7_of_ne m ρ c main_arg10 (by decide)
    _ = W5 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- `main_v3` is not written between boundaries 1 and 2. -/
theorem keep_v3_1_2 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

/-- `main_v3` is not written between boundaries 1 and 5. -/
theorem keep_v3_1_5 (c : Dev nD) : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- `main_v3` is not written between boundaries 1 and 8. -/
theorem keep_v3_1_8 (c : Dev nD) : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := W7_of_ne m ρ c main_v3 (by decide)
    _ = W5 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- `main_v3` is not written between boundaries 1 and 11. -/
theorem keep_v3_1_11 (c : Dev nD) : W11 m ρ c (Proc.devRef .tc main_v3) = W1 m ρ c (Proc.devRef .tc main_v3) :=
  calc W11 m ρ c (Proc.devRef .tc main_v3)
    _ = W10 m ρ c (Proc.devRef .tc main_v3) := W11_of_ne m ρ c main_v3 (by decide)
    _ = W9 m ρ c (Proc.devRef .tc main_v3) := W10_of_ne m ρ c main_v3 (by decide)
    _ = W8 m ρ c (Proc.devRef .tc main_v3) := StableHlo.after_of_forall_not_mem (b := Proc.devRef .tc main_v3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v3) := W8_of_ne m ρ c main_v3 (by decide)
    _ = W6 m ρ c (Proc.devRef .tc main_v3) := W7_of_ne m ρ c main_v3 (by decide)
    _ = W5 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- `main_v6` is not written between boundaries 1 and 2. -/
theorem keep_v6_1_2 (c : Dev nD) : W2 m ρ c (Proc.devRef .tc main_v6) = W1 m ρ c (Proc.devRef .tc main_v6) :=
  calc W2 m ρ c (Proc.devRef .tc main_v6)
    _ = W1 m ρ c (Proc.devRef .tc main_v6) := W2_of_ne m ρ c main_v6 (by decide)

/-- `main_v6` is not written between boundaries 1 and 5. -/
theorem keep_v6_1_5 (c : Dev nD) : W5 m ρ c (Proc.devRef .tc main_v6) = W1 m ρ c (Proc.devRef .tc main_v6) :=
  calc W5 m ρ c (Proc.devRef .tc main_v6)
    _ = W4 m ρ c (Proc.devRef .tc main_v6) := W5_of_ne m ρ c main_v6 (by decide)
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := W2_of_ne m ρ c main_v6 (by decide)

/-- `main_v6` is not written between boundaries 1 and 8. -/
theorem keep_v6_1_8 (c : Dev nD) : W8 m ρ c (Proc.devRef .tc main_v6) = W1 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := W7_of_ne m ρ c main_v6 (by decide)
    _ = W5 m ρ c (Proc.devRef .tc main_v6) := StableHlo.after_of_forall_not_mem (b := Proc.devRef .tc main_v6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v6) := W5_of_ne m ρ c main_v6 (by decide)
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := W2_of_ne m ρ c main_v6 (by decide)

/-- `main_v6` is not written between boundaries 1 and 11. -/
theorem keep_v6_1_11 (c : Dev nD) : W11 m ρ c (Proc.devRef .tc main_v6) = W1 m ρ c (Proc.devRef .tc main_v6) :=
  calc W11 m ρ c (Proc.devRef .tc main_v6)
    _ = W10 m ρ c (Proc.devRef .tc main_v6) := W11_of_ne m ρ c main_v6 (by decide)
    _ = W9 m ρ c (Proc.devRef .tc main_v6) := W10_of_ne m ρ c main_v6 (by decide)
    _ = W8 m ρ c (Proc.devRef .tc main_v6) := StableHlo.after_of_forall_not_mem (b := Proc.devRef .tc main_v6) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v6) := W8_of_ne m ρ c main_v6 (by decide)
    _ = W6 m ρ c (Proc.devRef .tc main_v6) := W7_of_ne m ρ c main_v6 (by decide)
    _ = W5 m ρ c (Proc.devRef .tc main_v6) := StableHlo.after_of_forall_not_mem (b := Proc.devRef .tc main_v6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v6) := W5_of_ne m ρ c main_v6 (by decide)
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := W2_of_ne m ρ c main_v6 (by decide)

/-- `main_v26` is not written between boundaries 1 and 2. -/
theorem keep_v26_1_2 (c : Dev nD) : W2 m ρ c (Proc.devRef .tc main_v26) = W1 m ρ c (Proc.devRef .tc main_v26) :=
  calc W2 m ρ c (Proc.devRef .tc main_v26)
    _ = W1 m ρ c (Proc.devRef .tc main_v26) := W2_of_ne m ρ c main_v26 (by decide)

/-- `main_v26` is not written between boundaries 1 and 5. -/
theorem keep_v26_1_5 (c : Dev nD) : W5 m ρ c (Proc.devRef .tc main_v26) = W1 m ρ c (Proc.devRef .tc main_v26) :=
  calc W5 m ρ c (Proc.devRef .tc main_v26)
    _ = W4 m ρ c (Proc.devRef .tc main_v26) := W5_of_ne m ρ c main_v26 (by decide)
    _ = W3 m ρ c (Proc.devRef .tc main_v26) := W4_of_ne m ρ c main_v26 (by decide)
    _ = W2 m ρ c (Proc.devRef .tc main_v26) := StableHlo.after_of_forall_not_mem (b := Proc.devRef .tc main_v26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v26) := W2_of_ne m ρ c main_v26 (by decide)

/-- `main_v26` is not written between boundaries 1 and 8. -/
theorem keep_v26_1_8 (c : Dev nD) : W8 m ρ c (Proc.devRef .tc main_v26) = W1 m ρ c (Proc.devRef .tc main_v26) :=
  calc W8 m ρ c (Proc.devRef .tc main_v26)
    _ = W7 m ρ c (Proc.devRef .tc main_v26) := W8_of_ne m ρ c main_v26 (by decide)
    _ = W6 m ρ c (Proc.devRef .tc main_v26) := W7_of_ne m ρ c main_v26 (by decide)
    _ = W5 m ρ c (Proc.devRef .tc main_v26) := StableHlo.after_of_forall_not_mem (b := Proc.devRef .tc main_v26) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v26) := W5_of_ne m ρ c main_v26 (by decide)
    _ = W3 m ρ c (Proc.devRef .tc main_v26) := W4_of_ne m ρ c main_v26 (by decide)
    _ = W2 m ρ c (Proc.devRef .tc main_v26) := StableHlo.after_of_forall_not_mem (b := Proc.devRef .tc main_v26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v26) := W2_of_ne m ρ c main_v26 (by decide)

/-- `main_v26` is not written between boundaries 1 and 11. -/
theorem keep_v26_1_11 (c : Dev nD) : W11 m ρ c (Proc.devRef .tc main_v26) = W1 m ρ c (Proc.devRef .tc main_v26) :=
  calc W11 m ρ c (Proc.devRef .tc main_v26)
    _ = W10 m ρ c (Proc.devRef .tc main_v26) := W11_of_ne m ρ c main_v26 (by decide)
    _ = W9 m ρ c (Proc.devRef .tc main_v26) := W10_of_ne m ρ c main_v26 (by decide)
    _ = W8 m ρ c (Proc.devRef .tc main_v26) := StableHlo.after_of_forall_not_mem (b := Proc.devRef .tc main_v26) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v26) := W8_of_ne m ρ c main_v26 (by decide)
    _ = W6 m ρ c (Proc.devRef .tc main_v26) := W7_of_ne m ρ c main_v26 (by decide)
    _ = W5 m ρ c (Proc.devRef .tc main_v26) := StableHlo.after_of_forall_not_mem (b := Proc.devRef .tc main_v26) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v26) := W5_of_ne m ρ c main_v26 (by decide)
    _ = W3 m ρ c (Proc.devRef .tc main_v26) := W4_of_ne m ρ c main_v26 (by decide)
    _ = W2 m ρ c (Proc.devRef .tc main_v26) := StableHlo.after_of_forall_not_mem (b := Proc.devRef .tc main_v26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v26) := W2_of_ne m ρ c main_v26 (by decide)

/-- `main_v42` is not written between boundaries 4 and 6. -/
theorem keep_v42_4_6 (c : Dev nD) : W6 m ρ c (Proc.devRef .tc main_v42) = W4 m ρ c (Proc.devRef .tc main_v42) :=
  calc W6 m ρ c (Proc.devRef .tc main_v42)
    _ = W5 m ρ c (Proc.devRef .tc main_v42) := StableHlo.after_of_forall_not_mem (b := Proc.devRef .tc main_v42) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v42) := (W5_arr m ρ c 0).trans (((dat2 (V4 m ρ) c).arrAt_in 0 rfl _).trans (A_eq2 (V4 m ρ) c 0))

/-- `main_v58` is not written between boundaries 7 and 9. -/
theorem keep_v58_7_9 (c : Dev nD) : W9 m ρ c (Proc.devRef .tc main_v58) = W7 m ρ c (Proc.devRef .tc main_v58) :=
  calc W9 m ρ c (Proc.devRef .tc main_v58)
    _ = W8 m ρ c (Proc.devRef .tc main_v58) := StableHlo.after_of_forall_not_mem (b := Proc.devRef .tc main_v58) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v58) := (W8_arr m ρ c 0).trans (((dat4 (V7 m ρ) c).arrAt_in 0 rfl _).trans (A_eq4 (V7 m ρ) c 0))

/-- `main_v74` is not written between boundaries 10 and 12. -/
theorem keep_v74_10_12 (c : Dev nD) : W12 m ρ c (Proc.devRef .tc main_v74) = W10 m ρ c (Proc.devRef .tc main_v74) :=
  calc W12 m ρ c (Proc.devRef .tc main_v74)
    _ = W11 m ρ c (Proc.devRef .tc main_v74) := StableHlo.after_of_forall_not_mem (b := Proc.devRef .tc main_v74) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v74) := (W11_arr m ρ c 0).trans (((dat6 (V10 m ρ) c).arrAt_in 0 rfl _).trans (A_eq6 (V10 m ρ) c 0))

/-- `main_v88` is not written between boundaries 12 and 14. -/
theorem keep_v88_12_14 (c : Dev nD) : W14 m ρ c (Proc.devRef .tc main_v88) = W12 m ρ c (Proc.devRef .tc main_v88) :=
  calc W14 m ρ c (Proc.devRef .tc main_v88)
    _ = W13 m ρ c (Proc.devRef .tc main_v88) := StableHlo.after_of_forall_not_mem (b := Proc.devRef .tc main_v88) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_v88) := W13_of_ne m ρ c main_v88 (by decide)

/-- `main_v89` is not written between boundaries 13 and 14. -/
theorem keep_v89_13_14 (c : Dev nD) : W14 m ρ c (Proc.devRef .tc main_v89) = W13 m ρ c (Proc.devRef .tc main_v89) :=
  calc W14 m ρ c (Proc.devRef .tc main_v89)
    _ = W13 m ρ c (Proc.devRef .tc main_v89) := StableHlo.after_of_forall_not_mem (b := Proc.devRef .tc main_v89) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.RunValue

end
-- ==== Proof.Spec.lean ====
/-
  The mathematics of one graph-convolution layer's dense parts, stated once over literal shapes and read at an
  index of the extended reals.  A node-feature array has 100000 rows; a projection contracts its 128 columns
  against a weight matrix, `(x · W)(r, c) = Σ_k x(r, k) · W(k, c)`; a combination adds the aggregated messages, the
  bias of the column and the residual row by row, `(conv + b + res)(r, c) = conv(r, c) + b(0, c) + res(r, c)`, and the
  hidden layers clamp the sum at zero from below.
-/
import Idealize.ShloMosaic.PureOps.Ideal
import Idealize.ShloMosaic.PureOps.Ideal.Laws
import Idealize.ShloMosaic.Lib.ValueIdx

noncomputable section

namespace Cert.Spec

open Idealize.ShloMosaic

/-- 100000 node rows of 128 features. -/
abbrev Rows128 : Shape := ⟨2, ![100000, 128]⟩
/-- 100000 node rows of 64 classes. -/
abbrev Rows64 : Shape := ⟨2, ![100000, 64]⟩
/-- A hidden-layer weight matrix. -/
abbrev Sq128 : Shape := ⟨2, ![128, 128]⟩
/-- An output-layer weight matrix. -/
abbrev Out128x64 : Shape := ⟨2, ![128, 64]⟩
/-- A bias laid out as one row of 128 columns. -/
abbrev Row128 : Shape := ⟨2, ![1, 128]⟩
/-- A bias laid out as one row of 64 columns. -/
abbrev Row64 : Shape := ⟨2, ![1, 64]⟩

/-- The projection `x · W` into 128 columns: entry `(r, c)` is `Σ_k x(r, k) · W(k, c)`. -/
def project128 (x : (⟨Rows128, .f32⟩ : BufTy).Contents (Elt Ideal)) (w : (⟨Sq128, .f32⟩ : BufTy).Contents (Elt Ideal)) :
    (⟨Rows128, .f32⟩ : BufTy).Contents (Elt Ideal) := fun i =>
  ∑ k : Fin 128, x (fun a => match a with
      | ⟨0, _⟩ => ⟨(i 0).val, (i 0).isLt⟩
      | ⟨1, _⟩ => ⟨k.val, k.isLt⟩)
    * w (fun a => match a with
      | ⟨0, _⟩ => ⟨k.val, k.isLt⟩
      | ⟨1, _⟩ => ⟨(i 1).val, (i 1).isLt⟩)

/-- The projection `x · W` into 64 columns: entry `(r, c)` is `Σ_k x(r, k) · W(k, c)`. -/
def project64 (x : (⟨Rows128, .f32⟩ : BufTy).Contents (Elt Ideal)) (w : (⟨Out128x64, .f32⟩ : BufTy).Contents (Elt Ideal)) :
    (⟨Rows64, .f32⟩ : BufTy).Contents (Elt Ideal) := fun i =>
  ∑ k : Fin 128, x (fun a => match a with
      | ⟨0, _⟩ => ⟨(i 0).val, (i 0).isLt⟩
      | ⟨1, _⟩ => ⟨k.val, k.isLt⟩)
    * w (fun a => match a with
      | ⟨0, _⟩ => ⟨k.val, k.isLt⟩
      | ⟨1, _⟩ => ⟨(i 1).val, (i 1).isLt⟩)

/-- A hidden layer's combination: messages plus the column's bias plus the residual, clamped at zero from below. -/
def combineRelu (conv : (⟨Rows128, .f32⟩ : BufTy).Contents (Elt Ideal)) (b : (⟨Row128, .f32⟩ : BufTy).Contents (Elt Ideal))
    (res : (⟨Rows128, .f32⟩ : BufTy).Contents (Elt Ideal)) : (⟨Rows128, .f32⟩ : BufTy).Contents (Elt Ideal) := fun i =>
  max (conv i + b (fun a => match a with
      | ⟨0, _⟩ => ⟨0, Nat.zero_lt_one⟩
      | ⟨1, _⟩ => ⟨(i 1).val, (i 1).isLt⟩) + res i) 0

/-- The output layer's combination: messages plus the column's bias plus the projected skip, no clamp. -/
def combineOut (conv : (⟨Rows64, .f32⟩ : BufTy).Contents (Elt Ideal)) (b : (⟨Row64, .f32⟩ : BufTy).Contents (Elt Ideal))
    (res : (⟨Rows64, .f32⟩ : BufTy).Contents (Elt Ideal)) : (⟨Rows64, .f32⟩ : BufTy).Contents (Elt Ideal) := fun i =>
  conv i + b (fun a => match a with
      | ⟨0, _⟩ => ⟨0, Nat.zero_lt_one⟩
      | ⟨1, _⟩ => ⟨(i 1).val, (i 1).isLt⟩) + res i

end Cert.Spec

end
-- ==== Proof.RefStages.lean ====
/-
  The reference, stage by stage, in the layer's own words: each of its contractions is the projection `x · W` read at
  an index, each hidden layer's `relu(conv + b + x)` is the combination of the messages, the bias row and the residual,
  and its result is the output layer's combination of the messages, the bias row and the projected skip.
-/
import proofs.«104301_j82197084111386_1_alg».proof.Proof.Gen.ReferenceIdeal.Read
import proofs.«104301_j82197084111386_1_alg».proof.Proof.Spec
import Idealize.ShloMosaic.Lib.Pipeline.Value

set_option maxRecDepth 16384

noncomputable section

namespace Cert.ReferenceIdeal.RefValue

open Cert.ReferenceIdeal Cert.ReferenceIdeal.Gen Cert.ReferenceIdeal.Read Idealize.ShloMosaic Idealize.ShloMosaic.TcCoe

/-- The reference's contraction `v27` is the projection by the weights `x2`: at an index, the sum over the contracted axis. -/
theorem v27_eq (x0 : (⟨S100000x128, .f32⟩ : BufTy).Contents (Elt Ideal)) (x2 : (⟨S128x128, .f32⟩ : BufTy).Contents (Elt Ideal)) :
    val_main_v27 (F := Ideal) x0 x2 = Cert.Spec.project128 x0 x2 := by
  funext i
  rw [val_main_v27_apply]
  rfl

/-- The reference's `v45` — messages plus the broadcast bias plus the residual, clamped at zero from below — is the hidden
    layer's combination, the bias read through any re-layout of it as one row. -/
theorem v45_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (h : (⟨1, ![128]⟩ : Shape).ShapeCasts ⟨2, ![1, 128]⟩) :
    val_main_v45 (F := Ideal) x0 x1 x2 x3 = Cert.Spec.combineRelu (val_main_v40 (F := Ideal) x0 x1 x2) (shapeCast ⟨2, ![1, 128]⟩ x3 h) x0 := by
  funext i
  rw [val_main_v45_apply, val_main_v44_apply, val_main_v43_apply, val_main_v42_apply, val_main_v41_apply,
    val_main_call0_v0_apply, val_main_call0_cst_apply]
  unfold Cert.Spec.combineRelu
  rw [shapeCast_addUnit_apply]
  simp only [Ideal.maximumf_def, Ideal.addf_def, Ideal.ofBits_def, Ideal.ofBits_zero_f32]
  refine congrArg (fun z => max (val_main_v40 (F := Ideal) x0 x1 x2 i + x3 z + x0 i) 0) (funext fun a => Fin.ext ?_)
  match a with
  | ⟨0, _⟩ => rfl

/-- The reference's contraction `v46` is the projection by the weights `x4`: at an index, the sum over the contracted axis. -/
theorem v46_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v46 (F := Ideal) x0 x1 x2 x3 x4 = Cert.Spec.project128 (val_main_v45 (F := Ideal) x0 x1 x2 x3) x4 := by
  funext i
  rw [val_main_v46_apply]
  rfl

/-- The reference's `v64` — messages plus the broadcast bias plus the residual, clamped at zero from below — is the hidden
    layer's combination, the bias read through any re-layout of it as one row. -/
theorem v64_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (h : (⟨1, ![128]⟩ : Shape).ShapeCasts ⟨2, ![1, 128]⟩) :
    val_main_v64 (F := Ideal) x0 x1 x2 x3 x4 x5 = Cert.Spec.combineRelu (val_main_v59 (F := Ideal) x0 x1 x2 x3 x4) (shapeCast ⟨2, ![1, 128]⟩ x5 h) (val_main_v45 (F := Ideal) x0 x1 x2 x3) := by
  funext i
  rw [val_main_v64_apply, val_main_v63_apply, val_main_v62_apply, val_main_v61_apply, val_main_v60_apply,
    val_main_call1_v0_apply, val_main_call1_cst_apply]
  unfold Cert.Spec.combineRelu
  rw [shapeCast_addUnit_apply]
  simp only [Ideal.maximumf_def, Ideal.addf_def, Ideal.ofBits_def, Ideal.ofBits_zero_f32]
  refine congrArg (fun z => max (val_main_v59 (F := Ideal) x0 x1 x2 x3 x4 i + x5 z + val_main_v45 (F := Ideal) x0 x1 x2 x3 i) 0) (funext fun a => Fin.ext ?_)
  match a with
  | ⟨0, _⟩ => rfl

/-- The reference's contraction `v65` is the projection by the weights `x6`: at an index, the sum over the contracted axis. -/
theorem v65_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) :
    val_main_v65 (F := Ideal) x0 x1 x2 x3 x4 x5 x6 = Cert.Spec.project128 (val_main_v64 (F := Ideal) x0 x1 x2 x3 x4 x5) x6 := by
  funext i
  rw [val_main_v65_apply]
  rfl

/-- The reference's `v83` — messages plus the broadcast bias plus the residual, clamped at zero from below — is the hidden
    layer's combination, the bias read through any re-layout of it as one row. -/
theorem v83_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (h : (⟨1, ![128]⟩ : Shape).ShapeCasts ⟨2, ![1, 128]⟩) :
    val_main_v83 (F := Ideal) x0 x1 x2 x3 x4 x5 x6 x7 = Cert.Spec.combineRelu (val_main_v78 (F := Ideal) x0 x1 x2 x3 x4 x5 x6) (shapeCast ⟨2, ![1, 128]⟩ x7 h) (val_main_v64 (F := Ideal) x0 x1 x2 x3 x4 x5) := by
  funext i
  rw [val_main_v83_apply, val_main_v82_apply, val_main_v81_apply, val_main_v80_apply, val_main_v79_apply,
    val_main_call2_v0_apply, val_main_call2_cst_apply]
  unfold Cert.Spec.combineRelu
  rw [shapeCast_addUnit_apply]
  simp only [Ideal.maximumf_def, Ideal.addf_def, Ideal.ofBits_def, Ideal.ofBits_zero_f32]
  refine congrArg (fun z => max (val_main_v78 (F := Ideal) x0 x1 x2 x3 x4 x5 x6 i + x7 z + val_main_v64 (F := Ideal) x0 x1 x2 x3 x4 x5 i) 0) (funext fun a => Fin.ext ?_)
  match a with
  | ⟨0, _⟩ => rfl

/-- The reference's contraction `v84` is the projection by the weights `x8`: at an index, the sum over the contracted axis. -/
theorem v84_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x64, .f32⟩ : BufTy).Contents (Elt Ideal)) :
    val_main_v84 (F := Ideal) x0 x1 x2 x3 x4 x5 x6 x7 x8 = Cert.Spec.project64 (val_main_v83 (F := Ideal) x0 x1 x2 x3 x4 x5 x6 x7) x8 := by
  funext i
  rw [val_main_v84_apply]
  rfl

/-- The reference's contraction `v101` is the projection by the weights `x10`: at an index, the sum over the contracted axis. -/
theorem v101_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x10 : (⟨S128x64, .f32⟩ : BufTy).Contents (Elt Ideal)) :
    val_main_v101 (F := Ideal) x0 x1 x2 x3 x4 x5 x6 x7 x10 = Cert.Spec.project64 (val_main_v83 (F := Ideal) x0 x1 x2 x3 x4 x5 x6 x7) x10 := by
  funext i
  rw [val_main_v101_apply]
  rfl

/-- The reference's result — messages plus the broadcast bias, plus the projected skip — is the output layer's combination,
    the bias read through any re-layout of it as one row. -/
theorem v102_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x64, .f32⟩ : BufTy).Contents (Elt Ideal)) (x9 : (⟨S64, .f32⟩ : BufTy).Contents (Elt Ideal)) (x10 : (⟨S128x64, .f32⟩ : BufTy).Contents (Elt Ideal)) (h : (⟨1, ![64]⟩ : Shape).ShapeCasts ⟨2, ![1, 64]⟩) :
    val_main_v102 (F := Ideal) x0 x1 x2 x3 x4 x5 x6 x7 x8 x9 x10 = Cert.Spec.combineOut (val_main_v97 (F := Ideal) x0 x1 x2 x3 x4 x5 x6 x7 x8) (shapeCast ⟨2, ![1, 64]⟩ x9 h) (val_main_v101 (F := Ideal) x0 x1 x2 x3 x4 x5 x6 x7 x10) := by
  funext i
  rw [val_main_v102_apply, val_main_v100_apply, val_main_v99_apply, val_main_v98_apply]
  unfold Cert.Spec.combineOut
  rw [shapeCast_addUnit_apply]
  simp only [Ideal.addf_def]
  refine congrArg (fun z => val_main_v97 (F := Ideal) x0 x1 x2 x3 x4 x5 x6 x7 x8 i + x9 z + val_main_v101 (F := Ideal) x0 x1 x2 x3 x4 x5 x6 x7 x10 i) (funext fun a => Fin.ext ?_)
  match a with
  | ⟨0, _⟩ => rfl

end Cert.ReferenceIdeal.RefValue

end
-- ==== Proof.Region0.lean ====
/-
  The first pipelined call is a projection: the array it leaves is `x · W` of the two arrays it reads.
  Each of the 20 grid points loads rows 5000·t … 5000·t + 4999 of the left array and the whole weight matrix,
  multiplies them into a zero accumulator — at the extended reals a plain sum over the 128 contracted columns, the
  change of float format being the identity — and writes its 5000 rows back; the 20 row blocks tile the array.
-/
import proofs.«104301_j82197084111386_1_alg».proof.Proof.Gen.KernelIdeal.Frame
import proofs.«104301_j82197084111386_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

theorem origin_r0 : (![0, 0] : Fin 2 → Nat) = fun _ => 0 := funext fun a => by fin_cases a <;> rfl

/-! ## The body at an index -/

theorem lhs0_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs0_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs0_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs0_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's value at row `j 0`, column `j 1` of the block: the sum over the contracted axis of the block's row
    against the weights' column. -/
theorem pay0_apply (x0 : FVec Ideal S5000x128 .f32) (x1 : FVec Ideal S128x128 .f32) (j : S5000x128.Idx) :
    k0_pay1 (F := Ideal) x0 x1 j = ∑ k : Fin 128,
      x0 (fun a => match a with
        | ⟨0, _⟩ => ⟨(j 0).val, (j 0).isLt⟩
        | ⟨1, _⟩ => ⟨k.val, k.isLt⟩)
      * x1 (fun a => match a with
        | ⟨0, _⟩ => ⟨k.val, k.isLt⟩
        | ⟨1, _⟩ => ⟨(j 1).val, (j 1).isLt⟩) := by
  unfold k0_pay1
  show FloatOps.matmul dot_S5000x128_S128x128_S5000x128_1_0_0_1_n_n none x0 x1 (constant S5000x128 .f32 0x00000000#32) j = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = (fun a => match a with
      | ⟨0, _⟩ => ⟨(j 0).val, (j 0).isLt⟩
      | ⟨1, _⟩ => ⟨k.val, k.isLt⟩) := funext fun a => Fin.ext (by
    match a with
    | ⟨0, _⟩ => exact lhs0_0 _ _
    | ⟨1, _⟩ => exact (lhs0_1 _ _).trans hk)
  have er : dot_S5000x128_S128x128_S5000x128_1_0_0_1_n_n.rhsIdx j ((ValueIdx.contrEquiv1 dot_S5000x128_S128x128_S5000x128_1_0_0_1_n_n 128 rfl rfl).symm k) = (fun a => match a with
      | ⟨0, _⟩ => ⟨k.val, k.isLt⟩
      | ⟨1, _⟩ => ⟨(j 1).val, (j 1).isLt⟩) := funext fun a => Fin.ext (by
    match a with
    | ⟨0, _⟩ => exact (rhs0_0 _ _).trans hk
    | ⟨1, _⟩ => exact rhs0_1 _ _)
  rw [el, er]

/-! ## From the row blocks to the array -/

section
variable (V : (c : Dev nD) → (b : Ref sig .tc) → Buf (Elt Ideal) ((c : Thread nD τ).loc b))

/-- The three windows' block indices over the grid: the left array and the result move one row block per point,
    the weights stay. -/
theorem steps0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the 20 row blocks is some point's. -/
theorem reach0 : ∀ q : Fin 20, ∃ t : Fin cfg0.N, win0_2.index t = ![q.val, 0] :=
  (by decide +kernel : ∀ q : Fin 20, ∃ t : Fin grid0.N, win0_2.index t = ![q.val, 0])

/-- What point `t` writes back is block `t` of the projection of the arrays the call reads. -/
theorem flushed0 (c : Dev nD) (t : Fin cfg0.N) :
    (dat0 V c).flushed 2 t = ((cfg0.win 2).blk t).view.read (Elt Ideal)
      (Cert.Spec.project128 (V c main_arg0) (V c main_arg2)) := by
  show (cfg0.win 2).cut (grid0.coords t) ((dat0 V c).after 2 t) = _
  rw [after0_2]
  unfold out0_2
  rw [View.canon_unit_zero origin_r0]
  simp only [View.ld_unit_zero (S := S5000x128) origin_r0, View.ld_unit_zero (S := S128x128) origin_r0]
  obtain ⟨e0, e1, e2, e3, e4⟩ := steps0 t
  funext j
  refine (pay0_apply (iblk0 V c 0 t) (iblk0 V c 1 t) j).trans ?_
  show _ = Cert.Spec.project128 (V c main_arg0) (V c main_arg2) (((cfg0.win 2).blk t).view.emb j)
  unfold Cert.Spec.project128
  refine Finset.sum_congr rfl fun k _ => ?_
  have hx : ∀ y, iblk0 V c 0 t y = V c main_arg0 (((cfg0.win 0).blk t).view.emb y) := fun y => rfl
  have hw : ∀ y, iblk0 V c 1 t y = V c main_arg2 (((cfg0.win 1).blk t).view.emb y) := fun y => rfl
  rw [hx, hw]
  congr 1
  · refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Row `r` lies in the block of the point that handles rows `5000 · (r / 5000) …`: the blocks cover the array. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := reach0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The array the call leaves is the projection of the arrays it reads. -/
theorem final0 (c : Dev nD) :
    (dat0 V c).arrAt 2 cfg0.N = Cert.Spec.project128 (V c main_arg0) (V c main_arg2) :=
  (dat0 V c).arrAt_eq_of_cover 2 _ (fun t _ => flushed0 V c t) (cover0)

end

end Cert.KernelIdeal.RegionValue

end
-- ==== Proof.Region1.lean ====
/-
  The second pipelined call is a layer's combination: the array it leaves is, entry by entry, the aggregated messages
  plus the bias of the entry's column plus the residual, clamped at zero from below.  Each of the 20 grid points loads rows
  5000·t … 5000·t + 4999 of the messages and of the residual and the one bias row, adds them, takes the maximum with zero and
  writes its 5000 rows back; the 20 row blocks tile the array.
-/
import proofs.«104301_j82197084111386_1_alg».proof.Proof.Gen.KernelIdeal.Frame
import proofs.«104301_j82197084111386_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

theorem origin_r1 : (![0, 0] : Fin 2 → Nat) = fun _ => 0 := funext fun a => by fin_cases a <;> rfl

/-! ## The body at an index -/

/-- The body's value at row `j 0`, column `j 1` of the block: messages plus the column's bias plus the residual, at least zero. -/
theorem pay1_apply (x0 : FVec Ideal S5000x128 .f32) (x1 : FVec Ideal S1x128 .f32) (x2 : FVec Ideal S5000x128 .f32) (j : S5000x128.Idx) :
    k1_pay1 (F := Ideal) x0 x1 x2 j = max (x0 j + x1 (fun a => match a with
        | ⟨0, _⟩ => ⟨0, Nat.zero_lt_one⟩
        | ⟨1, _⟩ => ⟨(j 1).val, (j 1).isLt⟩) + x2 j) 0 := by
  unfold k1_pay1
  rw [shapeCast_self, shapeCast_self]
  show FloatOps.maximumf (FloatOps.addf (FloatOps.addf (x0 j) (broadcastTo S5000x128 x1 broadcasts_S1x128_S5000x128 j)) (x2 j)) (Scalar.ofBits .f32 0x00000000#32) = _
  rw [broadcastTo_apply x1 broadcasts_S1x128_S5000x128 j (fun a => match a with
        | ⟨0, _⟩ => ⟨0, Nat.zero_lt_one⟩
        | ⟨1, _⟩ => ⟨(j 1).val, (j 1).isLt⟩) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])]
  simp only [Ideal.maximumf_def, Ideal.addf_def, Ideal.ofBits_def, Ideal.ofBits_zero_f32]

/-! ## From the row blocks to the array -/

section
variable (V : (c : Dev nD) → (b : Ref sig .tc) → Buf (Elt Ideal) ((c : Thread nD τ).loc b))

/-- The four windows' block indices over the grid: messages, residual and result move one row block per point,
    the bias row stays. -/
theorem steps1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = win1_3.index t (0 : Fin 2)
    ∧ win1_2.index t (1 : Fin 2) = 0
    ∧ win1_3.index t (1 : Fin 2) = 0 :=
  (by decide +kernel : ∀ t : Fin grid1.N, _)

/-- Every one of the 20 row blocks is some point's. -/
theorem reach1 : ∀ q : Fin 20, ∃ t : Fin cfg1.N, win1_3.index t = ![q.val, 0] :=
  (by decide +kernel : ∀ q : Fin 20, ∃ t : Fin grid1.N, win1_3.index t = ![q.val, 0])

/-- What point `t` writes back is block `t` of the combination of the arrays the call reads. -/
theorem flushed1 (c : Dev nD) (t : Fin cfg1.N) :
    (dat1 V c).flushed 3 t = ((cfg1.win 3).blk t).view.read (Elt Ideal)
      (Cert.Spec.combineRelu (V c main_v40) (V c main_v41) (V c main_arg0)) := by
  show (cfg1.win 3).cut (grid1.coords t) ((dat1 V c).after 3 t) = _
  rw [after1_3]
  unfold out1_3
  rw [View.canon_unit_zero origin_r1]
  simp only [View.ld_unit_zero (S := S5000x128) origin_r1, View.ld_unit_zero (S := S1x128) origin_r1]
  obtain ⟨e0, e1, e2, e3, e4, e5, e6⟩ := steps1 t
  funext j
  refine (pay1_apply (iblk1 V c 0 t) (iblk1 V c 1 t) (iblk1 V c 2 t) j).trans ?_
  show _ = Cert.Spec.combineRelu (V c main_v40) (V c main_v41) (V c main_arg0) (((cfg1.win 3).blk t).view.emb j)
  unfold Cert.Spec.combineRelu
  have h0 : ∀ y, iblk1 V c 0 t y = V c main_v40 (((cfg1.win 0).blk t).view.emb y) := fun y => rfl
  have h1 : ∀ y, iblk1 V c 1 t y = V c main_v41 (((cfg1.win 1).blk t).view.emb y) := fun y => rfl
  have h2 : ∀ y, iblk1 V c 2 t y = V c main_arg0 (((cfg1.win 2).blk t).view.emb y) := fun y => rfl
  rw [h0, h1, h2]
  have i0 : ((cfg1.win 0).blk t).view.emb j = ((cfg1.win 3).blk t).view.emb j := funext fun a => Fin.ext (by
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega)
  have i2 : ((cfg1.win 2).blk t).view.emb j = ((cfg1.win 3).blk t).view.emb j := funext fun a => Fin.ext (by
    match a with
    | ⟨0, _⟩ => show win1_2.index t (0 : Fin 2) * 5000 + 1 * (j 0).val = win1_3.index t (0 : Fin 2) * 5000 + 1 * (j 0).val; omega
    | ⟨1, _⟩ => show win1_2.index t (1 : Fin 2) * 128 + 1 * (j 1).val = win1_3.index t (1 : Fin 2) * 128 + 1 * (j 1).val; omega)
  rw [i0, i2]
  have only_bias : ∀ (A C : (⟨S100000x128, .f32⟩ : BufTy).Contents (Elt Ideal)) (B : (⟨S1x128, .f32⟩ : BufTy).Contents (Elt Ideal))
      (p : S100000x128.Idx) (z z' : S1x128.Idx), z = z' → max (A p + B z + C p) 0 = max (A p + B z' + C p) 0 :=
    fun _ _ _ _ _ _ h => by rw [h]
  refine only_bias (V c main_v40) (V c main_arg0) (V c main_v41) _ _ _ (funext fun a => Fin.ext ?_)
  match a with
  | ⟨0, _⟩ => show win1_1.index t (0 : Fin 2) * 1 + 1 * 0 = 0; omega
  | ⟨1, _⟩ => show win1_1.index t (1 : Fin 2) * 128 + 1 * (j 1).val = win1_3.index t (1 : Fin 2) * 128 + 1 * (j 1).val; omega

/-- An index of the array is in point `t`'s block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v42).slice (win1_3.rect t)).set ↔ _
  rw [View.set_slice_whole, Rect.mem_set_unit]
  exact Iff.rfl

/-- Row `r` lies in the block of the point that handles rows `5000 · (r / 5000) …`: the blocks cover the array. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := reach1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The array the call leaves is the combination of the arrays it reads. -/
theorem final1 (c : Dev nD) :
    (dat1 V c).arrAt 3 cfg1.N = Cert.Spec.combineRelu (V c main_v40) (V c main_v41) (V c main_arg0) :=
  (dat1 V c).arrAt_eq_of_cover 3 _ (fun t _ => flushed1 V c t) (cover1)

end

end Cert.KernelIdeal.RegionValue

end
-- ==== Proof.Region2.lean ====
/-
  The third pipelined call is a projection: the array it leaves is `x · W` of the two arrays it reads.
  Each of the 20 grid points loads rows 5000·t … 5000·t + 4999 of the left array and the whole weight matrix,
  multiplies them into a zero accumulator — at the extended reals a plain sum over the 128 contracted columns, the
  change of float format being the identity — and writes its 5000 rows back; the 20 row blocks tile the array.
-/
import proofs.«104301_j82197084111386_1_alg».proof.Proof.Gen.KernelIdeal.Frame
import proofs.«104301_j82197084111386_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

theorem origin_r2 : (![0, 0] : Fin 2 → Nat) = fun _ => 0 := funext fun a => by fin_cases a <;> rfl

/-! ## The body at an index -/

theorem lhs2_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs2_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs2_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs2_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's value at row `j 0`, column `j 1` of the block: the sum over the contracted axis of the block's row
    against the weights' column. -/
theorem pay2_apply (x0 : FVec Ideal S5000x128 .f32) (x1 : FVec Ideal S128x128 .f32) (j : S5000x128.Idx) :
    k2_pay1 (F := Ideal) x0 x1 j = ∑ k : Fin 128,
      x0 (fun a => match a with
        | ⟨0, _⟩ => ⟨(j 0).val, (j 0).isLt⟩
        | ⟨1, _⟩ => ⟨k.val, k.isLt⟩)
      * x1 (fun a => match a with
        | ⟨0, _⟩ => ⟨k.val, k.isLt⟩
        | ⟨1, _⟩ => ⟨(j 1).val, (j 1).isLt⟩) := by
  unfold k2_pay1
  rw [shapeCast_self]
  show FloatOps.matmul dot_S5000x128_S128x128_S5000x128_1_0_0_1_n_n none x0 x1 (constant S5000x128 .f32 0x00000000#32) j = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = (fun a => match a with
      | ⟨0, _⟩ => ⟨(j 0).val, (j 0).isLt⟩
      | ⟨1, _⟩ => ⟨k.val, k.isLt⟩) := funext fun a => Fin.ext (by
    match a with
    | ⟨0, _⟩ => exact lhs2_0 _ _
    | ⟨1, _⟩ => exact (lhs2_1 _ _).trans hk)
  have er : dot_S5000x128_S128x128_S5000x128_1_0_0_1_n_n.rhsIdx j ((ValueIdx.contrEquiv1 dot_S5000x128_S128x128_S5000x128_1_0_0_1_n_n 128 rfl rfl).symm k) = (fun a => match a with
      | ⟨0, _⟩ => ⟨k.val, k.isLt⟩
      | ⟨1, _⟩ => ⟨(j 1).val, (j 1).isLt⟩) := funext fun a => Fin.ext (by
    match a with
    | ⟨0, _⟩ => exact (rhs2_0 _ _).trans hk
    | ⟨1, _⟩ => exact rhs2_1 _ _)
  rw [el, er]

/-! ## From the row blocks to the array -/

section
variable (V : (c : Dev nD) → (b : Ref sig .tc) → Buf (Elt Ideal) ((c : Thread nD τ).loc b))

/-- The three windows' block indices over the grid: the left array and the result move one row block per point,
    the weights stay. -/
theorem steps2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every one of the 20 row blocks is some point's. -/
theorem reach2 : ∀ q : Fin 20, ∃ t : Fin cfg2.N, win2_2.index t = ![q.val, 0] :=
  (by decide +kernel : ∀ q : Fin 20, ∃ t : Fin grid2.N, win2_2.index t = ![q.val, 0])

/-- What point `t` writes back is block `t` of the projection of the arrays the call reads. -/
theorem flushed2 (c : Dev nD) (t : Fin cfg2.N) :
    (dat2 V c).flushed 2 t = ((cfg2.win 2).blk t).view.read (Elt Ideal)
      (Cert.Spec.project128 (V c main_v42) (V c main_arg4)) := by
  show (cfg2.win 2).cut (grid2.coords t) ((dat2 V c).after 2 t) = _
  rw [after2_2]
  unfold out2_2
  rw [View.canon_unit_zero origin_r2]
  simp only [View.ld_unit_zero (S := S5000x128) origin_r2, View.ld_unit_zero (S := S128x128) origin_r2]
  obtain ⟨e0, e1, e2, e3, e4⟩ := steps2 t
  funext j
  refine (pay2_apply (iblk2 V c 0 t) (iblk2 V c 1 t) j).trans ?_
  show _ = Cert.Spec.project128 (V c main_v42) (V c main_arg4) (((cfg2.win 2).blk t).view.emb j)
  unfold Cert.Spec.project128
  refine Finset.sum_congr rfl fun k _ => ?_
  have hx : ∀ y, iblk2 V c 0 t y = V c main_v42 (((cfg2.win 0).blk t).view.emb y) := fun y => rfl
  have hw : ∀ y, iblk2 V c 1 t y = V c main_arg4 (((cfg2.win 1).blk t).view.emb y) := fun y => rfl
  rw [hx, hw]
  congr 1
  · refine congrArg (V c main_v42) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · refine congrArg (V c main_arg4) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the array is in point `t`'s block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v43).slice (win2_2.rect t)).set ↔ _
  rw [View.set_slice_whole, Rect.mem_set_unit]
  exact Iff.rfl

/-- Row `r` lies in the block of the point that handles rows `5000 · (r / 5000) …`: the blocks cover the array. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := reach2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The array the call leaves is the projection of the arrays it reads. -/
theorem final2 (c : Dev nD) :
    (dat2 V c).arrAt 2 cfg2.N = Cert.Spec.project128 (V c main_v42) (V c main_arg4) :=
  (dat2 V c).arrAt_eq_of_cover 2 _ (fun t _ => flushed2 V c t) (cover2)

end

end Cert.KernelIdeal.RegionValue

end
-- ==== Proof.Region3.lean ====
/-
  The fourth pipelined call is a layer's combination: the array it leaves is, entry by entry, the aggregated messages
  plus the bias of the entry's column plus the residual, clamped at zero from below.  Each of the 20 grid points loads rows
  5000·t … 5000·t + 4999 of the messages and of the residual and the one bias row, adds them, takes the maximum with zero and
  writes its 5000 rows back; the 20 row blocks tile the array.
-/
import proofs.«104301_j82197084111386_1_alg».proof.Proof.Gen.KernelIdeal.Frame
import proofs.«104301_j82197084111386_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

theorem origin_r3 : (![0, 0] : Fin 2 → Nat) = fun _ => 0 := funext fun a => by fin_cases a <;> rfl

/-! ## The body at an index -/

/-- The body's value at row `j 0`, column `j 1` of the block: messages plus the column's bias plus the residual, at least zero. -/
theorem pay3_apply (x0 : FVec Ideal S5000x128 .f32) (x1 : FVec Ideal S1x128 .f32) (x2 : FVec Ideal S5000x128 .f32) (j : S5000x128.Idx) :
    k3_pay1 (F := Ideal) x0 x1 x2 j = max (x0 j + x1 (fun a => match a with
        | ⟨0, _⟩ => ⟨0, Nat.zero_lt_one⟩
        | ⟨1, _⟩ => ⟨(j 1).val, (j 1).isLt⟩) + x2 j) 0 := by
  unfold k3_pay1
  rw [shapeCast_self, shapeCast_self, shapeCast_self]
  show FloatOps.maximumf (FloatOps.addf (FloatOps.addf (x0 j) (broadcastTo S5000x128 x1 broadcasts_S1x128_S5000x128 j)) (x2 j)) (Scalar.ofBits .f32 0x00000000#32) = _
  rw [broadcastTo_apply x1 broadcasts_S1x128_S5000x128 j (fun a => match a with
        | ⟨0, _⟩ => ⟨0, Nat.zero_lt_one⟩
        | ⟨1, _⟩ => ⟨(j 1).val, (j 1).isLt⟩) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])]
  simp only [Ideal.maximumf_def, Ideal.addf_def, Ideal.ofBits_def, Ideal.ofBits_zero_f32]

/-! ## From the row blocks to the array -/

section
variable (V : (c : Dev nD) → (b : Ref sig .tc) → Buf (Elt Ideal) ((c : Thread nD τ).loc b))

/-- The four windows' block indices over the grid: messages, residual and result move one row block per point,
    the bias row stays. -/
theorem steps3 : ∀ t : Fin cfg3.N, win3_0.index t (0 : Fin 2) = win3_3.index t (0 : Fin 2)
    ∧ win3_0.index t (1 : Fin 2) = 0
    ∧ win3_1.index t (0 : Fin 2) = 0
    ∧ win3_1.index t (1 : Fin 2) = 0
    ∧ win3_2.index t (0 : Fin 2) = win3_3.index t (0 : Fin 2)
    ∧ win3_2.index t (1 : Fin 2) = 0
    ∧ win3_3.index t (1 : Fin 2) = 0 :=
  (by decide +kernel : ∀ t : Fin grid3.N, _)

/-- Every one of the 20 row blocks is some point's. -/
theorem reach3 : ∀ q : Fin 20, ∃ t : Fin cfg3.N, win3_3.index t = ![q.val, 0] :=
  (by decide +kernel : ∀ q : Fin 20, ∃ t : Fin grid3.N, win3_3.index t = ![q.val, 0])

/-- What point `t` writes back is block `t` of the combination of the arrays the call reads. -/
theorem flushed3 (c : Dev nD) (t : Fin cfg3.N) :
    (dat3 V c).flushed 3 t = ((cfg3.win 3).blk t).view.read (Elt Ideal)
      (Cert.Spec.combineRelu (V c main_v56) (V c main_v57) (V c main_v42)) := by
  show (cfg3.win 3).cut (grid3.coords t) ((dat3 V c).after 3 t) = _
  rw [after3_3]
  unfold out3_3
  rw [View.canon_unit_zero origin_r3]
  simp only [View.ld_unit_zero (S := S5000x128) origin_r3, View.ld_unit_zero (S := S1x128) origin_r3]
  obtain ⟨e0, e1, e2, e3, e4, e5, e6⟩ := steps3 t
  funext j
  refine (pay3_apply (iblk3 V c 0 t) (iblk3 V c 1 t) (iblk3 V c 2 t) j).trans ?_
  show _ = Cert.Spec.combineRelu (V c main_v56) (V c main_v57) (V c main_v42) (((cfg3.win 3).blk t).view.emb j)
  unfold Cert.Spec.combineRelu
  have h0 : ∀ y, iblk3 V c 0 t y = V c main_v56 (((cfg3.win 0).blk t).view.emb y) := fun y => rfl
  have h1 : ∀ y, iblk3 V c 1 t y = V c main_v57 (((cfg3.win 1).blk t).view.emb y) := fun y => rfl
  have h2 : ∀ y, iblk3 V c 2 t y = V c main_v42 (((cfg3.win 2).blk t).view.emb y) := fun y => rfl
  rw [h0, h1, h2]
  have i0 : ((cfg3.win 0).blk t).view.emb j = ((cfg3.win 3).blk t).view.emb j := funext fun a => Fin.ext (by
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * (j 1).val = win3_3.index t (1 : Fin 2) * 128 + 1 * (j 1).val; omega)
  have i2 : ((cfg3.win 2).blk t).view.emb j = ((cfg3.win 3).blk t).view.emb j := funext fun a => Fin.ext (by
    match a with
    | ⟨0, _⟩ => show win3_2.index t (0 : Fin 2) * 5000 + 1 * (j 0).val = win3_3.index t (0 : Fin 2) * 5000 + 1 * (j 0).val; omega
    | ⟨1, _⟩ => show win3_2.index t (1 : Fin 2) * 128 + 1 * (j 1).val = win3_3.index t (1 : Fin 2) * 128 + 1 * (j 1).val; omega)
  rw [i0, i2]
  have only_bias : ∀ (A C : (⟨S100000x128, .f32⟩ : BufTy).Contents (Elt Ideal)) (B : (⟨S1x128, .f32⟩ : BufTy).Contents (Elt Ideal))
      (p : S100000x128.Idx) (z z' : S1x128.Idx), z = z' → max (A p + B z + C p) 0 = max (A p + B z' + C p) 0 :=
    fun _ _ _ _ _ _ h => by rw [h]
  refine only_bias (V c main_v56) (V c main_v42) (V c main_v57) _ _ _ (funext fun a => Fin.ext ?_)
  match a with
  | ⟨0, _⟩ => show win3_1.index t (0 : Fin 2) * 1 + 1 * 0 = 0; omega
  | ⟨1, _⟩ => show win3_1.index t (1 : Fin 2) * 128 + 1 * (j 1).val = win3_3.index t (1 : Fin 2) * 128 + 1 * (j 1).val; omega

/-- An index of the array is in point `t`'s block iff each coordinate is in the block's range on its axis. -/
theorem mem_blk3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v58).slice (win3_3.rect t)).set ↔ _
  rw [View.set_slice_whole, Rect.mem_set_unit]
  exact Iff.rfl

/-- Row `r` lies in the block of the point that handles rows `5000 · (r / 5000) …`: the blocks cover the array. -/
theorem cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ := reach3 ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The array the call leaves is the combination of the arrays it reads. -/
theorem final3 (c : Dev nD) :
    (dat3 V c).arrAt 3 cfg3.N = Cert.Spec.combineRelu (V c main_v56) (V c main_v57) (V c main_v42) :=
  (dat3 V c).arrAt_eq_of_cover 3 _ (fun t _ => flushed3 V c t) (cover3)

end

end Cert.KernelIdeal.RegionValue

end
-- ==== Proof.Region4.lean ====
/-
  The fifth pipelined call is a projection: the array it leaves is `x · W` of the two arrays it reads.
  Each of the 20 grid points loads rows 5000·t … 5000·t + 4999 of the left array and the whole weight matrix,
  multiplies them into a zero accumulator — at the extended reals a plain sum over the 128 contracted columns, the
  change of float format being the identity — and writes its 5000 rows back; the 20 row blocks tile the array.
-/
import proofs.«104301_j82197084111386_1_alg».proof.Proof.Gen.KernelIdeal.Frame
import proofs.«104301_j82197084111386_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

theorem origin_r4 : (![0, 0] : Fin 2 → Nat) = fun _ => 0 := funext fun a => by fin_cases a <;> rfl

/-! ## The body at an index -/

theorem lhs4_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs4_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs4_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs4_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's value at row `j 0`, column `j 1` of the block: the sum over the contracted axis of the block's row
    against the weights' column. -/
theorem pay4_apply (x0 : FVec Ideal S5000x128 .f32) (x1 : FVec Ideal S128x128 .f32) (j : S5000x128.Idx) :
    k4_pay1 (F := Ideal) x0 x1 j = ∑ k : Fin 128,
      x0 (fun a => match a with
        | ⟨0, _⟩ => ⟨(j 0).val, (j 0).isLt⟩
        | ⟨1, _⟩ => ⟨k.val, k.isLt⟩)
      * x1 (fun a => match a with
        | ⟨0, _⟩ => ⟨k.val, k.isLt⟩
        | ⟨1, _⟩ => ⟨(j 1).val, (j 1).isLt⟩) := by
  unfold k4_pay1
  rw [shapeCast_self]
  show FloatOps.matmul dot_S5000x128_S128x128_S5000x128_1_0_0_1_n_n none x0 x1 (constant S5000x128 .f32 0x00000000#32) j = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = (fun a => match a with
      | ⟨0, _⟩ => ⟨(j 0).val, (j 0).isLt⟩
      | ⟨1, _⟩ => ⟨k.val, k.isLt⟩) := funext fun a => Fin.ext (by
    match a with
    | ⟨0, _⟩ => exact lhs4_0 _ _
    | ⟨1, _⟩ => exact (lhs4_1 _ _).trans hk)
  have er : dot_S5000x128_S128x128_S5000x128_1_0_0_1_n_n.rhsIdx j ((ValueIdx.contrEquiv1 dot_S5000x128_S128x128_S5000x128_1_0_0_1_n_n 128 rfl rfl).symm k) = (fun a => match a with
      | ⟨0, _⟩ => ⟨k.val, k.isLt⟩
      | ⟨1, _⟩ => ⟨(j 1).val, (j 1).isLt⟩) := funext fun a => Fin.ext (by
    match a with
    | ⟨0, _⟩ => exact (rhs4_0 _ _).trans hk
    | ⟨1, _⟩ => exact rhs4_1 _ _)
  rw [el, er]

/-! ## From the row blocks to the array -/

section
variable (V : (c : Dev nD) → (b : Ref sig .tc) → Buf (Elt Ideal) ((c : Thread nD τ).loc b))

/-- The three windows' block indices over the grid: the left array and the result move one row block per point,
    the weights stay. -/
theorem steps4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0 :=
  (by decide +kernel : ∀ t : Fin grid4.N, _)

/-- Every one of the 20 row blocks is some point's. -/
theorem reach4 : ∀ q : Fin 20, ∃ t : Fin cfg4.N, win4_2.index t = ![q.val, 0] :=
  (by decide +kernel : ∀ q : Fin 20, ∃ t : Fin grid4.N, win4_2.index t = ![q.val, 0])

/-- What point `t` writes back is block `t` of the projection of the arrays the call reads. -/
theorem flushed4 (c : Dev nD) (t : Fin cfg4.N) :
    (dat4 V c).flushed 2 t = ((cfg4.win 2).blk t).view.read (Elt Ideal)
      (Cert.Spec.project128 (V c main_v58) (V c main_arg6)) := by
  show (cfg4.win 2).cut (grid4.coords t) ((dat4 V c).after 2 t) = _
  rw [after4_2]
  unfold out4_2
  rw [View.canon_unit_zero origin_r4]
  simp only [View.ld_unit_zero (S := S5000x128) origin_r4, View.ld_unit_zero (S := S128x128) origin_r4]
  obtain ⟨e0, e1, e2, e3, e4⟩ := steps4 t
  funext j
  refine (pay4_apply (iblk4 V c 0 t) (iblk4 V c 1 t) j).trans ?_
  show _ = Cert.Spec.project128 (V c main_v58) (V c main_arg6) (((cfg4.win 2).blk t).view.emb j)
  unfold Cert.Spec.project128
  refine Finset.sum_congr rfl fun k _ => ?_
  have hx : ∀ y, iblk4 V c 0 t y = V c main_v58 (((cfg4.win 0).blk t).view.emb y) := fun y => rfl
  have hw : ∀ y, iblk4 V c 1 t y = V c main_arg6 (((cfg4.win 1).blk t).view.emb y) := fun y => rfl
  rw [hx, hw]
  congr 1
  · refine congrArg (V c main_v58) (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  · refine congrArg (V c main_arg6) (funext fun a => Fin.ext ?_)
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega

/-- An index of the array is in point `t`'s block iff each coordinate is in the block's range on its axis. -/
theorem mem_blk4 (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v59).slice (win4_2.rect t)).set ↔ _
  rw [View.set_slice_whole, Rect.mem_set_unit]
  exact Iff.rfl

/-- Row `r` lies in the block of the point that handles rows `5000 · (r / 5000) …`: the blocks cover the array. -/
theorem cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := reach4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The array the call leaves is the projection of the arrays it reads. -/
theorem final4 (c : Dev nD) :
    (dat4 V c).arrAt 2 cfg4.N = Cert.Spec.project128 (V c main_v58) (V c main_arg6) :=
  (dat4 V c).arrAt_eq_of_cover 2 _ (fun t _ => flushed4 V c t) (cover4)

end

end Cert.KernelIdeal.RegionValue

end
-- ==== Proof.Region5.lean ====
/-
  The sixth pipelined call is a layer's combination: the array it leaves is, entry by entry, the aggregated messages
  plus the bias of the entry's column plus the residual, clamped at zero from below.  Each of the 20 grid points loads rows
  5000·t … 5000·t + 4999 of the messages and of the residual and the one bias row, adds them, takes the maximum with zero and
  writes its 5000 rows back; the 20 row blocks tile the array.
-/
import proofs.«104301_j82197084111386_1_alg».proof.Proof.Gen.KernelIdeal.Frame
import proofs.«104301_j82197084111386_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

theorem origin_r5 : (![0, 0] : Fin 2 → Nat) = fun _ => 0 := funext fun a => by fin_cases a <;> rfl

/-! ## The body at an index -/

/-- The body's value at row `j 0`, column `j 1` of the block: messages plus the column's bias plus the residual, at least zero. -/
theorem pay5_apply (x0 : FVec Ideal S5000x128 .f32) (x1 : FVec Ideal S1x128 .f32) (x2 : FVec Ideal S5000x128 .f32) (j : S5000x128.Idx) :
    k5_pay1 (F := Ideal) x0 x1 x2 j = max (x0 j + x1 (fun a => match a with
        | ⟨0, _⟩ => ⟨0, Nat.zero_lt_one⟩
        | ⟨1, _⟩ => ⟨(j 1).val, (j 1).isLt⟩) + x2 j) 0 := by
  unfold k5_pay1
  rw [shapeCast_self, shapeCast_self, shapeCast_self]
  show FloatOps.maximumf (FloatOps.addf (FloatOps.addf (x0 j) (broadcastTo S5000x128 x1 broadcasts_S1x128_S5000x128 j)) (x2 j)) (Scalar.ofBits .f32 0x00000000#32) = _
  rw [broadcastTo_apply x1 broadcasts_S1x128_S5000x128 j (fun a => match a with
        | ⟨0, _⟩ => ⟨0, Nat.zero_lt_one⟩
        | ⟨1, _⟩ => ⟨(j 1).val, (j 1).isLt⟩) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])]
  simp only [Ideal.maximumf_def, Ideal.addf_def, Ideal.ofBits_def, Ideal.ofBits_zero_f32]

/-! ## From the row blocks to the array -/

section
variable (V : (c : Dev nD) → (b : Ref sig .tc) → Buf (Elt Ideal) ((c : Thread nD τ).loc b))

/-- The four windows' block indices over the grid: messages, residual and result move one row block per point,
    the bias row stays. -/
theorem steps5 : ∀ t : Fin cfg5.N, win5_0.index t (0 : Fin 2) = win5_3.index t (0 : Fin 2)
    ∧ win5_0.index t (1 : Fin 2) = 0
    ∧ win5_1.index t (0 : Fin 2) = 0
    ∧ win5_1.index t (1 : Fin 2) = 0
    ∧ win5_2.index t (0 : Fin 2) = win5_3.index t (0 : Fin 2)
    ∧ win5_2.index t (1 : Fin 2) = 0
    ∧ win5_3.index t (1 : Fin 2) = 0 :=
  (by decide +kernel : ∀ t : Fin grid5.N, _)

/-- Every one of the 20 row blocks is some point's. -/
theorem reach5 : ∀ q : Fin 20, ∃ t : Fin cfg5.N, win5_3.index t = ![q.val, 0] :=
  (by decide +kernel : ∀ q : Fin 20, ∃ t : Fin grid5.N, win5_3.index t = ![q.val, 0])

/-- What point `t` writes back is block `t` of the combination of the arrays the call reads. -/
theorem flushed5 (c : Dev nD) (t : Fin cfg5.N) :
    (dat5 V c).flushed 3 t = ((cfg5.win 3).blk t).view.read (Elt Ideal)
      (Cert.Spec.combineRelu (V c main_v72) (V c main_v73) (V c main_v58)) := by
  show (cfg5.win 3).cut (grid5.coords t) ((dat5 V c).after 3 t) = _
  rw [after5_3]
  unfold out5_3
  rw [View.canon_unit_zero origin_r5]
  simp only [View.ld_unit_zero (S := S5000x128) origin_r5, View.ld_unit_zero (S := S1x128) origin_r5]
  obtain ⟨e0, e1, e2, e3, e4, e5, e6⟩ := steps5 t
  funext j
  refine (pay5_apply (iblk5 V c 0 t) (iblk5 V c 1 t) (iblk5 V c 2 t) j).trans ?_
  show _ = Cert.Spec.combineRelu (V c main_v72) (V c main_v73) (V c main_v58) (((cfg5.win 3).blk t).view.emb j)
  unfold Cert.Spec.combineRelu
  have h0 : ∀ y, iblk5 V c 0 t y = V c main_v72 (((cfg5.win 0).blk t).view.emb y) := fun y => rfl
  have h1 : ∀ y, iblk5 V c 1 t y = V c main_v73 (((cfg5.win 1).blk t).view.emb y) := fun y => rfl
  have h2 : ∀ y, iblk5 V c 2 t y = V c main_v58 (((cfg5.win 2).blk t).view.emb y) := fun y => rfl
  rw [h0, h1, h2]
  have i0 : ((cfg5.win 0).blk t).view.emb j = ((cfg5.win 3).blk t).view.emb j := funext fun a => Fin.ext (by
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 128 + 1 * (j 1).val = win5_3.index t (1 : Fin 2) * 128 + 1 * (j 1).val; omega)
  have i2 : ((cfg5.win 2).blk t).view.emb j = ((cfg5.win 3).blk t).view.emb j := funext fun a => Fin.ext (by
    match a with
    | ⟨0, _⟩ => show win5_2.index t (0 : Fin 2) * 5000 + 1 * (j 0).val = win5_3.index t (0 : Fin 2) * 5000 + 1 * (j 0).val; omega
    | ⟨1, _⟩ => show win5_2.index t (1 : Fin 2) * 128 + 1 * (j 1).val = win5_3.index t (1 : Fin 2) * 128 + 1 * (j 1).val; omega)
  rw [i0, i2]
  have only_bias : ∀ (A C : (⟨S100000x128, .f32⟩ : BufTy).Contents (Elt Ideal)) (B : (⟨S1x128, .f32⟩ : BufTy).Contents (Elt Ideal))
      (p : S100000x128.Idx) (z z' : S1x128.Idx), z = z' → max (A p + B z + C p) 0 = max (A p + B z' + C p) 0 :=
    fun _ _ _ _ _ _ h => by rw [h]
  refine only_bias (V c main_v72) (V c main_v58) (V c main_v73) _ _ _ (funext fun a => Fin.ext ?_)
  match a with
  | ⟨0, _⟩ => show win5_1.index t (0 : Fin 2) * 1 + 1 * 0 = 0; omega
  | ⟨1, _⟩ => show win5_1.index t (1 : Fin 2) * 128 + 1 * (j 1).val = win5_3.index t (1 : Fin 2) * 128 + 1 * (j 1).val; omega

/-- An index of the array is in point `t`'s block iff each coordinate is in the block's range on its axis. -/
theorem mem_blk5 (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v74).slice (win5_3.rect t)).set ↔ _
  rw [View.set_slice_whole, Rect.mem_set_unit]
  exact Iff.rfl

/-- Row `r` lies in the block of the point that handles rows `5000 · (r / 5000) …`: the blocks cover the array. -/
theorem cover5 (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  obtain ⟨t, ht⟩ := reach5 ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk5]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- The array the call leaves is the combination of the arrays it reads. -/
theorem final5 (c : Dev nD) :
    (dat5 V c).arrAt 3 cfg5.N = Cert.Spec.combineRelu (V c main_v72) (V c main_v73) (V c main_v58) :=
  (dat5 V c).arrAt_eq_of_cover 3 _ (fun t _ => flushed5 V c t) (cover5)

end

end Cert.KernelIdeal.RegionValue

end
-- ==== Proof.Region6.lean ====
/-
  The seventh pipelined call is a projection: the array it leaves is `x · W` of the two arrays it reads.
  Each of the 20 grid points loads rows 5000·t … 5000·t + 4999 of the left array and the whole weight matrix,
  multiplies them into a zero accumulator — at the extended reals a plain sum over the 128 contracted columns, the
  change of float format being the identity — and writes its 5000 rows back; the 20 row blocks tile the array.
-/
import proofs.«104301_j82197084111386_1_alg».proof.Proof.Gen.KernelIdeal.Frame
import proofs.«104301_j82197084111386_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

theorem origin_r6 : (![0, 0] : Fin 2 → Nat) = fun _ => 0 := funext fun a => by fin_cases a <;> rfl

/-! ## The body at an index -/

theorem lhs6_0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs6_1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs6_0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs6_1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's value at row `j 0`, column `j 1` of the block: the sum over the contracted axis of the block's row
    against the weights' column. -/
theorem pay6_apply (x0 : FVec Ideal S5000x128 .f32) (x1 : FVec Ideal S128x64 .f32) (j : S5000x64.Idx) :
    k6_pay1 (F := Ideal) x0 x1 j = ∑ k : Fin 128,
      x0 (fun a => match a with
        | ⟨0, _⟩ => ⟨(j 0).val, (j 0).isLt⟩
        | ⟨1, _⟩ => ⟨k.val, k.isLt⟩)
      * x1 (fun a => match a with
        | ⟨0, _⟩ => ⟨k.val, k.isLt⟩
        | ⟨1, _⟩ => ⟨(j 1).val, (j 1).isLt⟩) := by
  unfold k6_pay1
  rw [shapeCast_self]
  show FloatOps.matmul dot_S5000x128_S128x64_S5000x64_1_0_0_1_n_n none x0 x1 (constant S5000x64 .f32 0x00000000#32) j = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = (fun a => match a with
      | ⟨0, _⟩ => ⟨(j 0).val, (j 0).isLt⟩
      | ⟨1, _⟩ => ⟨k.val, k.isLt⟩) := funext fun a => Fin.ext (by
    match a with
    | ⟨0, _⟩ => exact lhs6_0 _ _
    | ⟨1, _⟩ => exact (lhs6_1 _ _).trans hk)
  have er : dot_S5000x128_S128x64_S5000x64_1_0_0_1_n_n.rhsIdx j ((ValueIdx.contrEquiv1 dot_S5000x128_S128x64_S5000x64_1_0_0_1_n_n 128 rfl rfl).symm k) = (fun a => match a with
      | ⟨0, _⟩ => ⟨k.val, k.isLt⟩
      | ⟨1, _⟩ => ⟨(j 1).val, (j 1).isLt⟩) := funext fun a => Fin.ext (by
    match a with
    | ⟨0, _⟩ => exact (rhs6_0 _ _).trans hk
    | ⟨1, _⟩ => exact rhs6_1 _ _)
  rw [el, er]

/-! ## From the row blocks to the array -/

section
variable (V : (c : Dev nD) → (b : Ref sig .tc) → Buf (Elt Ideal) ((c : Thread nD τ).loc b))

/-- The three windows' block indices over the grid: the left array and the result move one row block per point,
    the weights stay. -/
theorem steps6 : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0 :=
  (by decide +kernel : ∀ t : Fin grid6.N, _)

/-- Every one of the 20 row blocks is some point's. -/
theorem reach6 : ∀ q : Fin 20, ∃ t : Fin cfg6.N, win6_2.index t = ![q.val, 0] :=
  (by decide +kernel : ∀ q : Fin 20, ∃ t : Fin grid6.N, win6_2.index t = ![q.val, 0])

/-- What point `t` writes back is block `t` of the projection of the arrays the call reads. -/
theorem flushed6 (c : Dev nD) (t : Fin cfg6.N) :
    (dat6 V c).flushed 2 t = ((cfg6.win 2).blk t).view.read (Elt Ideal)
      (Cert.Spec.project64 (V c main_v74) (V c main_arg8)) := by
  show (cfg6.win 2).cut (grid6.coords t) ((dat6 V c).after 2 t) = _
  rw [after6_2]
  unfold out6_2
  rw [View.canon_unit_zero origin_r6]
  simp only [View.ld_unit_zero (S := S5000x128) origin_r6, View.ld_unit_zero (S := S128x64) origin_r6]
  obtain ⟨e0, e1, e2, e3, e4⟩ := steps6 t
  funext j
  refine (pay6_apply (iblk6 V c 0 t) (iblk6 V c 1 t) j).trans ?_
  show _ = Cert.Spec.project64 (V c main_v74) (V c main_arg8) (((cfg6.win 2).blk t).view.emb j)
  unfold Cert.Spec.project64
  refine Finset.sum_congr rfl fun k _ => ?_
  have hx : ∀ y, iblk6 V c 0 t y = V c main_v74 (((cfg6.win 0).blk t).view.emb y) := fun y => rfl
  have hw : ∀ y, iblk6 V c 1 t y = V c main_arg8 (((cfg6.win 1).blk t).view.emb y) := fun y => rfl
  rw [hx, hw]
  congr 1
  · refine congrArg (V c main_v74) (funext fun a => Fin.ext ?_)
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 128 + 1 * k.val = k.val; omega
  · refine congrArg (V c main_arg8) (funext fun a => Fin.ext ?_)
    match a with
    | ⟨0, _⟩ => show win6_1.index t (0 : Fin 2) * 128 + 1 * k.val = k.val; omega
    | ⟨1, _⟩ => show win6_1.index t (1 : Fin 2) * 64 + 1 * (j 1).val = win6_2.index t (1 : Fin 2) * 64 + 1 * (j 1).val; omega

/-- An index of the array is in point `t`'s block iff each coordinate is in the block's range on its axis. -/
theorem mem_blk6 (t : Fin cfg6.N) (i : S100000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v75).slice (win6_2.rect t)).set ↔ _
  rw [View.set_slice_whole, Rect.mem_set_unit]
  exact Iff.rfl

/-- Row `r` lies in the block of the point that handles rows `5000 · (r / 5000) …`: the blocks cover the array. -/
theorem cover6 (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  obtain ⟨t, ht⟩ := reach6 ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_blk6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 64 ≤ (i 1).val ∧ (i 1).val < win6_2.index t (1 : Fin 2) * 64 + 64; omega

/-- The array the call leaves is the projection of the arrays it reads. -/
theorem final6 (c : Dev nD) :
    (dat6 V c).arrAt 2 cfg6.N = Cert.Spec.project64 (V c main_v74) (V c main_arg8) :=
  (dat6 V c).arrAt_eq_of_cover 2 _ (fun t _ => flushed6 V c t) (cover6)

end

end Cert.KernelIdeal.RegionValue

end
-- ==== Proof.Region7.lean ====
/-
  The eighth pipelined call is a projection: the array it leaves is `x · W` of the two arrays it reads.
  Each of the 20 grid points loads rows 5000·t … 5000·t + 4999 of the left array and the whole weight matrix,
  multiplies them into a zero accumulator — at the extended reals a plain sum over the 128 contracted columns, the
  change of float format being the identity — and writes its 5000 rows back; the 20 row blocks tile the array.
-/
import proofs.«104301_j82197084111386_1_alg».proof.Proof.Gen.KernelIdeal.Frame
import proofs.«104301_j82197084111386_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

theorem origin_r7 : (![0, 0] : Fin 2 → Nat) = fun _ => 0 := funext fun a => by fin_cases a <;> rfl

/-! ## The body at an index -/

theorem lhs7_0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs7_1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs7_0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs7_1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's value at row `j 0`, column `j 1` of the block: the sum over the contracted axis of the block's row
    against the weights' column. -/
theorem pay7_apply (x0 : FVec Ideal S5000x128 .f32) (x1 : FVec Ideal S128x64 .f32) (j : S5000x64.Idx) :
    k7_pay1 (F := Ideal) x0 x1 j = ∑ k : Fin 128,
      x0 (fun a => match a with
        | ⟨0, _⟩ => ⟨(j 0).val, (j 0).isLt⟩
        | ⟨1, _⟩ => ⟨k.val, k.isLt⟩)
      * x1 (fun a => match a with
        | ⟨0, _⟩ => ⟨k.val, k.isLt⟩
        | ⟨1, _⟩ => ⟨(j 1).val, (j 1).isLt⟩) := by
  unfold k7_pay1
  rw [shapeCast_self]
  show FloatOps.matmul dot_S5000x128_S128x64_S5000x64_1_0_0_1_n_n none x0 x1 (constant S5000x64 .f32 0x00000000#32) j = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = (fun a => match a with
      | ⟨0, _⟩ => ⟨(j 0).val, (j 0).isLt⟩
      | ⟨1, _⟩ => ⟨k.val, k.isLt⟩) := funext fun a => Fin.ext (by
    match a with
    | ⟨0, _⟩ => exact lhs7_0 _ _
    | ⟨1, _⟩ => exact (lhs7_1 _ _).trans hk)
  have er : dot_S5000x128_S128x64_S5000x64_1_0_0_1_n_n.rhsIdx j ((ValueIdx.contrEquiv1 dot_S5000x128_S128x64_S5000x64_1_0_0_1_n_n 128 rfl rfl).symm k) = (fun a => match a with
      | ⟨0, _⟩ => ⟨k.val, k.isLt⟩
      | ⟨1, _⟩ => ⟨(j 1).val, (j 1).isLt⟩) := funext fun a => Fin.ext (by
    match a with
    | ⟨0, _⟩ => exact (rhs7_0 _ _).trans hk
    | ⟨1, _⟩ => exact rhs7_1 _ _)
  rw [el, er]

/-! ## From the row blocks to the array -/

section
variable (V : (c : Dev nD) → (b : Ref sig .tc) → Buf (Elt Ideal) ((c : Thread nD τ).loc b))

/-- The three windows' block indices over the grid: the left array and the result move one row block per point,
    the weights stay. -/
theorem steps7 : ∀ t : Fin cfg7.N, win7_0.index t (0 : Fin 2) = win7_2.index t (0 : Fin 2)
    ∧ win7_0.index t (1 : Fin 2) = 0
    ∧ win7_1.index t (0 : Fin 2) = 0
    ∧ win7_1.index t (1 : Fin 2) = 0
    ∧ win7_2.index t (1 : Fin 2) = 0 :=
  (by decide +kernel : ∀ t : Fin grid7.N, _)

/-- Every one of the 20 row blocks is some point's. -/
theorem reach7 : ∀ q : Fin 20, ∃ t : Fin cfg7.N, win7_2.index t = ![q.val, 0] :=
  (by decide +kernel : ∀ q : Fin 20, ∃ t : Fin grid7.N, win7_2.index t = ![q.val, 0])

/-- What point `t` writes back is block `t` of the projection of the arrays the call reads. -/
theorem flushed7 (c : Dev nD) (t : Fin cfg7.N) :
    (dat7 V c).flushed 2 t = ((cfg7.win 2).blk t).view.read (Elt Ideal)
      (Cert.Spec.project64 (V c main_v74) (V c main_arg10)) := by
  show (cfg7.win 2).cut (grid7.coords t) ((dat7 V c).after 2 t) = _
  rw [after7_2]
  unfold out7_2
  rw [View.canon_unit_zero origin_r7]
  simp only [View.ld_unit_zero (S := S5000x128) origin_r7, View.ld_unit_zero (S := S128x64) origin_r7]
  obtain ⟨e0, e1, e2, e3, e4⟩ := steps7 t
  funext j
  refine (pay7_apply (iblk7 V c 0 t) (iblk7 V c 1 t) j).trans ?_
  show _ = Cert.Spec.project64 (V c main_v74) (V c main_arg10) (((cfg7.win 2).blk t).view.emb j)
  unfold Cert.Spec.project64
  refine Finset.sum_congr rfl fun k _ => ?_
  have hx : ∀ y, iblk7 V c 0 t y = V c main_v74 (((cfg7.win 0).blk t).view.emb y) := fun y => rfl
  have hw : ∀ y, iblk7 V c 1 t y = V c main_arg10 (((cfg7.win 1).blk t).view.emb y) := fun y => rfl
  rw [hx, hw]
  congr 1
  · refine congrArg (V c main_v74) (funext fun a => Fin.ext ?_)
    match a with
    | ⟨0, _⟩ => show win7_0.index t (0 : Fin 2) * 5000 + 1 * (j 0).val = win7_2.index t (0 : Fin 2) * 5000 + 1 * (j 0).val; omega
    | ⟨1, _⟩ => show win7_0.index t (1 : Fin 2) * 128 + 1 * k.val = k.val; omega
  · refine congrArg (V c main_arg10) (funext fun a => Fin.ext ?_)
    match a with
    | ⟨0, _⟩ => show win7_1.index t (0 : Fin 2) * 128 + 1 * k.val = k.val; omega
    | ⟨1, _⟩ => show win7_1.index t (1 : Fin 2) * 64 + 1 * (j 1).val = win7_2.index t (1 : Fin 2) * 64 + 1 * (j 1).val; omega

/-- An index of the array is in point `t`'s block iff each coordinate is in the block's range on its axis. -/
theorem mem_blk7 (t : Fin cfg7.N) (i : S100000x64.Idx) :
    i ∈ ((cfg7.win 2).blk t).view.set ↔ ∀ a : Fin 2, win7_2.index t a * S5000x64.size a ≤ (i a).val ∧ (i a).val < win7_2.index t a * S5000x64.size a + S5000x64.size a := by
  show i ∈ ((View.whole main_v89).slice (win7_2.rect t)).set ↔ _
  rw [View.set_slice_whole, Rect.mem_set_unit]
  exact Iff.rfl

/-- Row `r` lies in the block of the point that handles rows `5000 · (r / 5000) …`: the blocks cover the array. -/
theorem cover7 (i : S100000x64.Idx) :
    ∃ t : Fin cfg7.N, (cfg7.win 2).flush t = true ∧ i ∈ ((cfg7.win 2).blk t).view.set := by
  have hi0 : (i 0).val < 100000 := (i 0).isLt
  have hi1 : (i 1).val < 64 := (i 1).isLt
  obtain ⟨t, ht⟩ := reach7 ⟨(i 0).val / 5000, by omega⟩
  have q0 : win7_2.index t (0 : Fin 2) = (i 0).val / 5000 := congrFun ht 0
  have q1 : win7_2.index t (1 : Fin 2) = 0 := congrFun ht 1
  refine ⟨t, flush7_2 t, ?_⟩
  rw [mem_blk7]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 64 ≤ (i 1).val ∧ (i 1).val < win7_2.index t (1 : Fin 2) * 64 + 64; omega

/-- The array the call leaves is the projection of the arrays it reads. -/
theorem final7 (c : Dev nD) :
    (dat7 V c).arrAt 2 cfg7.N = Cert.Spec.project64 (V c main_v74) (V c main_arg10) :=
  (dat7 V c).arrAt_eq_of_cover 2 _ (fun t _ => flushed7 V c t) (cover7)

end

end Cert.KernelIdeal.RegionValue

end
-- ==== Proof.Region8.lean ====
/-
  The ninth pipelined call is a layer's combination: the array it leaves is, entry by entry, the aggregated messages
  plus the bias of the entry's column plus the residual.  Each of the 20 grid points loads rows
  5000·t … 5000·t + 4999 of the messages and of the residual and the one bias row, adds them and
  writes its 5000 rows back; the 20 row blocks tile the array.
-/
import proofs.«104301_j82197084111386_1_alg».proof.Proof.Gen.KernelIdeal.Frame
import proofs.«104301_j82197084111386_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

theorem origin_r8 : (![0, 0] : Fin 2 → Nat) = fun _ => 0 := funext fun a => by fin_cases a <;> rfl

/-! ## The body at an index -/

/-- The body's value at row `j 0`, column `j 1` of the block: messages plus the column's bias plus the residual. -/
theorem pay8_apply (x0 : FVec Ideal S5000x64 .f32) (x1 : FVec Ideal S1x64 .f32) (x2 : FVec Ideal S5000x64 .f32) (j : S5000x64.Idx) :
    k8_pay1 (F := Ideal) x0 x1 x2 j = x0 j + x1 (fun a => match a with
        | ⟨0, _⟩ => ⟨0, Nat.zero_lt_one⟩
        | ⟨1, _⟩ => ⟨(j 1).val, (j 1).isLt⟩) + x2 j := by
  unfold k8_pay1
  rw [shapeCast_self, shapeCast_self, shapeCast_self]
  show FloatOps.addf (FloatOps.addf (x0 j) (broadcastTo S5000x64 x1 broadcasts_S1x64_S5000x64 j)) (x2 j) = _
  rw [broadcastTo_apply x1 broadcasts_S1x64_S5000x64 j (fun a => match a with
        | ⟨0, _⟩ => ⟨0, Nat.zero_lt_one⟩
        | ⟨1, _⟩ => ⟨(j 1).val, (j 1).isLt⟩) (fun a => match a with
    | ⟨0, _⟩ => by show 0 = if (1 : Nat) = 1 then 0 else (j 0).val; rw [if_pos rfl]
    | ⟨1, _⟩ => by show (j 1).val = if (64 : Nat) = 1 then 0 else (j 1).val; rw [if_neg (by decide)])]
  simp only [Ideal.maximumf_def, Ideal.addf_def, Ideal.ofBits_def, Ideal.ofBits_zero_f32]

/-! ## From the row blocks to the array -/

section
variable (V : (c : Dev nD) → (b : Ref sig .tc) → Buf (Elt Ideal) ((c : Thread nD τ).loc b))

/-- The four windows' block indices over the grid: messages, residual and result move one row block per point,
    the bias row stays. -/
theorem steps8 : ∀ t : Fin cfg8.N, win8_0.index t (0 : Fin 2) = win8_3.index t (0 : Fin 2)
    ∧ win8_0.index t (1 : Fin 2) = 0
    ∧ win8_1.index t (0 : Fin 2) = 0
    ∧ win8_1.index t (1 : Fin 2) = 0
    ∧ win8_2.index t (0 : Fin 2) = win8_3.index t (0 : Fin 2)
    ∧ win8_2.index t (1 : Fin 2) = 0
    ∧ win8_3.index t (1 : Fin 2) = 0 :=
  (by decide +kernel : ∀ t : Fin grid8.N, _)

/-- Every one of the 20 row blocks is some point's. -/
theorem reach8 : ∀ q : Fin 20, ∃ t : Fin cfg8.N, win8_3.index t = ![q.val, 0] :=
  (by decide +kernel : ∀ q : Fin 20, ∃ t : Fin grid8.N, win8_3.index t = ![q.val, 0])

set_option maxHeartbeats 2000000 in
/-- What point `t` writes back is block `t` of the combination of the arrays the call reads. -/
theorem flushed8 (c : Dev nD) (t : Fin cfg8.N) :
    (dat8 V c).flushed 3 t = ((cfg8.win 3).blk t).view.read (Elt Ideal)
      (Cert.Spec.combineOut (V c main_v88) (V c main_v90) (V c main_v89)) := by
  show (cfg8.win 3).cut (grid8.coords t) ((dat8 V c).after 3 t) = _
  rw [after8_3]
  unfold out8_3
  rw [View.canon_unit_zero origin_r8]
  simp only [View.ld_unit_zero (S := S5000x64) origin_r8, View.ld_unit_zero (S := S1x64) origin_r8]
  obtain ⟨e0, e1, e2, e3, e4, e5, e6⟩ := steps8 t
  funext j
  refine (pay8_apply (iblk8 V c 0 t) (iblk8 V c 1 t) (iblk8 V c 2 t) j).trans ?_
  show _ = Cert.Spec.combineOut (V c main_v88) (V c main_v90) (V c main_v89) (((cfg8.win 3).blk t).view.emb j)
  unfold Cert.Spec.combineOut
  have h0 : ∀ y, iblk8 V c 0 t y = V c main_v88 (((cfg8.win 0).blk t).view.emb y) := fun y => rfl
  have h1 : ∀ y, iblk8 V c 1 t y = V c main_v90 (((cfg8.win 1).blk t).view.emb y) := fun y => rfl
  have h2 : ∀ y, iblk8 V c 2 t y = V c main_v89 (((cfg8.win 2).blk t).view.emb y) := fun y => rfl
  rw [h0, h1, h2]
  have i0 : ((cfg8.win 0).blk t).view.emb j = ((cfg8.win 3).blk t).view.emb j := funext fun a => Fin.ext (by
    match a with
    | ⟨0, _⟩ => show win8_0.index t (0 : Fin 2) * 5000 + 1 * (j 0).val = win8_3.index t (0 : Fin 2) * 5000 + 1 * (j 0).val; omega
    | ⟨1, _⟩ => show win8_0.index t (1 : Fin 2) * 64 + 1 * (j 1).val = win8_3.index t (1 : Fin 2) * 64 + 1 * (j 1).val; omega)
  have i2 : ((cfg8.win 2).blk t).view.emb j = ((cfg8.win 3).blk t).view.emb j := funext fun a => Fin.ext (by
    match a with
    | ⟨0, _⟩ => show win8_2.index t (0 : Fin 2) * 5000 + 1 * (j 0).val = win8_3.index t (0 : Fin 2) * 5000 + 1 * (j 0).val; omega
    | ⟨1, _⟩ => show win8_2.index t (1 : Fin 2) * 64 + 1 * (j 1).val = win8_3.index t (1 : Fin 2) * 64 + 1 * (j 1).val; omega)
  rw [i0, i2]
  have only_bias : ∀ (A C : (⟨S100000x64, .f32⟩ : BufTy).Contents (Elt Ideal)) (B : (⟨S1x64, .f32⟩ : BufTy).Contents (Elt Ideal))
      (p : S100000x64.Idx) (z z' : S1x64.Idx), z = z' → A p + B z + C p = A p + B z' + C p :=
    fun _ _ _ _ _ _ h => by rw [h]
  refine only_bias (V c main_v88) (V c main_v89) (V c main_v90) _ _ _ (funext fun a => Fin.ext ?_)
  match a with
  | ⟨0, _⟩ => show win8_1.index t (0 : Fin 2) * 1 + 1 * 0 = 0; omega
  | ⟨1, _⟩ => show win8_1.index t (1 : Fin 2) * 64 + 1 * (j 1).val = win8_3.index t (1 : Fin 2) * 64 + 1 * (j 1).val; omega

/-- An index of the array is in point `t`'s block iff each coordinate is in the block's range on its axis. -/
theorem mem_blk8 (t : Fin cfg8.N) (i : S100000x64.Idx) :
    i ∈ ((cfg8.win 3).blk t).view.set ↔ ∀ a : Fin 2, win8_3.index t a * S5000x64.size a ≤ (i a).val ∧ (i a).val < win8_3.index t a * S5000x64.size a + S5000x64.size a := by
  show i ∈ ((View.whole main_v91).slice (win8_3.rect t)).set ↔ _
  rw [View.set_slice_whole, Rect.mem_set_unit]
  exact Iff.rfl

/-- Row `r` lies in the block of the point that handles rows `5000 · (r / 5000) …`: the blocks cover the array. -/
theorem cover8 (i : S100000x64.Idx) :
    ∃ t : Fin cfg8.N, (cfg8.win 3).flush t = true ∧ i ∈ ((cfg8.win 3).blk t).view.set := by
  have hi0 : (i 0).val < 100000 := (i 0).isLt
  have hi1 : (i 1).val < 64 := (i 1).isLt
  obtain ⟨t, ht⟩ := reach8 ⟨(i 0).val / 5000, by omega⟩
  have q0 : win8_3.index t (0 : Fin 2) = (i 0).val / 5000 := congrFun ht 0
  have q1 : win8_3.index t (1 : Fin 2) = 0 := congrFun ht 1
  refine ⟨t, flush8_3 t, ?_⟩
  rw [mem_blk8]
  intro a
  match a with
  | ⟨0, _⟩ => show win8_3.index t (0 : Fin 2) * 5000 ≤ (i 0).val ∧ (i 0).val < win8_3.index t (0 : Fin 2) * 5000 + 5000; omega
  | ⟨1, _⟩ => show win8_3.index t (1 : Fin 2) * 64 ≤ (i 1).val ∧ (i 1).val < win8_3.index t (1 : Fin 2) * 64 + 64; omega

/-- The array the call leaves is the combination of the arrays it reads. -/
theorem final8 (c : Dev nD) :
    (dat8 V c).arrAt 3 cfg8.N = Cert.Spec.combineOut (V c main_v88) (V c main_v90) (V c main_v89) :=
  (dat8 V c).arrAt_eq_of_cover 3 _ (fun t _ => flushed8 V c t) (cover8)

end

end Cert.KernelIdeal.RegionValue

end
-- ==== Proof.KValue.lean ====
/-
  The contents of the program's buffers along the run, boundary by boundary, each named by the stage of the reference
  that computes the same array from the same arguments.  A stretch of host operations applies the operations the
  reference applies — the edge lists with their self-loops, the degrees and the edge coefficients, then per layer the
  gather of the projected rows, their scaling and the scatter-add into the destination rows — to buffers that already
  hold the reference's stages; a pipelined call leaves the projection or the combination of the arrays it reads, which
  is the reference's contraction or its `relu(conv + b + x)` of the same arrays.
-/
import proofs.«104301_j82197084111386_1_alg».proof.Proof.Gen.KernelIdeal.Frame
import proofs.«104301_j82197084111386_1_alg».proof.Proof.Keep
import proofs.«104301_j82197084111386_1_alg».proof.Proof.RefStages
import proofs.«104301_j82197084111386_1_alg».proof.Proof.Region0
import proofs.«104301_j82197084111386_1_alg».proof.Proof.Region1
import proofs.«104301_j82197084111386_1_alg».proof.Proof.Region2
import proofs.«104301_j82197084111386_1_alg».proof.Proof.Region3
import proofs.«104301_j82197084111386_1_alg».proof.Proof.Region4
import proofs.«104301_j82197084111386_1_alg».proof.Proof.Region5
import proofs.«104301_j82197084111386_1_alg».proof.Proof.Region6
import proofs.«104301_j82197084111386_1_alg».proof.Proof.Region7
import proofs.«104301_j82197084111386_1_alg».proof.Proof.Region8
import Idealize.ShloMosaic.Lib.StableHlo.Run

set_option maxRecDepth 16384

noncomputable section

namespace Cert.KernelIdeal.RunValue

open Cert.KernelIdeal Cert.KernelIdeal.Gen Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-! ## The first host stretch: edge lists with self-loops, and the edge coefficients -/

theorem at1_v3 (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results
  rfl

theorem at1_v6 (c : Dev nD) : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results
  rfl

set_option maxHeartbeats 4000000 in
theorem at1_v26 (c : Dev nD) : W1 m ρ c (Proc.devRef .tc main_v26) = Cert.ReferenceIdeal.Read.val_main_v26 (F := Ideal) (m ((c : Thread nD τ).loc main_arg1)) := by
  show StableHlo.after hostOps0 (W0 m ρ c) (Proc.devRef .tc main_v26) = _
  after_results_simp
  rfl

/-! ## The input layer -/

theorem at2_v27 (c : Dev nD) : W2 m ρ c (Proc.devRef .tc main_v27) = Cert.ReferenceIdeal.Read.val_main_v27 (F := Ideal) (m ((c : Thread nD τ).loc main_arg0)) (m ((c : Thread nD τ).loc main_arg2)) := by
  refine (W2_arr m ρ c 2).trans ?_
  rw [RegionValue.final0 (V1 m ρ) c]
  rw [show V1 m ρ c main_arg0 = _ from keep_arg0_0_1 m ρ c,
    show V1 m ρ c main_arg2 = _ from keep_arg2_0_1 m ρ c]
  exact (Cert.ReferenceIdeal.RefValue.v27_eq _ _).symm

set_option maxHeartbeats 4000000 in
theorem at3_v40 (c : Dev nD) : W3 m ρ c (Proc.devRef .tc main_v40) = Cert.ReferenceIdeal.Read.val_main_v40 (F := Ideal) (m ((c : Thread nD τ).loc main_arg0)) (m ((c : Thread nD τ).loc main_arg1)) (m ((c : Thread nD τ).loc main_arg2)) := by
  show StableHlo.after hostOps1 (W2 m ρ c) (Proc.devRef .tc main_v40) = _
  after_results_simp
  rw [keep_v3_1_2 m ρ c, keep_v6_1_2 m ρ c, keep_v26_1_2 m ρ c, at1_v3 m ρ c, at1_v6 m ρ c, at1_v26 m ρ c, at2_v27 m ρ c]
  rfl

theorem at3_v41 (c : Dev nD) : W3 m ρ c (Proc.devRef .tc main_v41) = shapeCast S1x128 (m ((c : Thread nD τ).loc main_arg3)) shapeCasts_S128_S1x128 := by
  show StableHlo.after hostOps1 (W2 m ρ c) (Proc.devRef .tc main_v41) = _
  after_results
  rw [keep_arg3_0_2 m ρ c]
  rfl

theorem at4_v42 (c : Dev nD) : W4 m ρ c (Proc.devRef .tc main_v42) = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) := by
  refine (W4_arr m ρ c 3).trans ?_
  rw [RegionValue.final1 (V3 m ρ) c]
  rw [show V3 m ρ c main_v40 = _ from at3_v40 m ρ c,
    show V3 m ρ c main_v41 = _ from at3_v41 m ρ c,
    show V3 m ρ c main_arg0 = _ from keep_arg0_0_3 m ρ c]
  exact (Cert.ReferenceIdeal.RefValue.v45_eq _ _ _ _ _).symm

/-! ## The first hidden layer -/

theorem at5_v43 (c : Dev nD) : W5 m ρ c (Proc.devRef .tc main_v43) = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ?_
  rw [RegionValue.final2 (V4 m ρ) c]
  rw [show V4 m ρ c main_v42 = _ from at4_v42 m ρ c,
    show V4 m ρ c main_arg4 = _ from keep_arg4_0_4 m ρ c]
  exact (Cert.ReferenceIdeal.RefValue.v46_eq _ _ _ _ _).symm

set_option maxHeartbeats 4000000 in
theorem at6_v56 (c : Dev nD) : W6 m ρ c (Proc.devRef .tc main_v56) = Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v56) = _
  after_results_simp
  rw [keep_v3_1_5 m ρ c, keep_v6_1_5 m ρ c, keep_v26_1_5 m ρ c, at1_v3 m ρ c, at1_v6 m ρ c, at1_v26 m ρ c, at5_v43 m ρ c]
  rfl

theorem at6_v57 (c : Dev nD) : W6 m ρ c (Proc.devRef .tc main_v57) = shapeCast S1x128 (m ((c : Thread nD τ).loc main_arg5)) shapeCasts_S128_S1x128 := by
  show StableHlo.after hostOps3 (W5 m ρ c) (Proc.devRef .tc main_v57) = _
  after_results
  rw [keep_arg5_0_5 m ρ c]
  rfl

theorem at6_v42 (c : Dev nD) : W6 m ρ c (Proc.devRef .tc main_v42) = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) :=
  (keep_v42_4_6 m ρ c).trans (at4_v42 m ρ c)

theorem at7_v58 (c : Dev nD) : W7 m ρ c (Proc.devRef .tc main_v58) = Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 3).trans ?_
  rw [RegionValue.final3 (V6 m ρ) c]
  rw [show V6 m ρ c main_v56 = _ from at6_v56 m ρ c,
    show V6 m ρ c main_v57 = _ from at6_v57 m ρ c,
    show V6 m ρ c main_v42 = _ from at6_v42 m ρ c]
  exact (Cert.ReferenceIdeal.RefValue.v64_eq _ _ _ _ _ _ _).symm

/-! ## The second hidden layer -/

theorem at8_v59 (c : Dev nD) : W8 m ρ c (Proc.devRef .tc main_v59) = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 2).trans ?_
  rw [RegionValue.final4 (V7 m ρ) c]
  rw [show V7 m ρ c main_v58 = _ from at7_v58 m ρ c,
    show V7 m ρ c main_arg6 = _ from keep_arg6_0_7 m ρ c]
  exact (Cert.ReferenceIdeal.RefValue.v65_eq _ _ _ _ _ _ _).symm

set_option maxHeartbeats 4000000 in
theorem at9_v72 (c : Dev nD) : W9 m ρ c (Proc.devRef .tc main_v72) = Cert.ReferenceIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W8 m ρ c) (Proc.devRef .tc main_v72) = _
  after_results_simp
  rw [keep_v3_1_8 m ρ c, keep_v6_1_8 m ρ c, keep_v26_1_8 m ρ c, at1_v3 m ρ c, at1_v6 m ρ c, at1_v26 m ρ c, at8_v59 m ρ c]
  rfl

theorem at9_v73 (c : Dev nD) : W9 m ρ c (Proc.devRef .tc main_v73) = shapeCast S1x128 (m ((c : Thread nD τ).loc main_arg7)) shapeCasts_S128_S1x128 := by
  show StableHlo.after hostOps5 (W8 m ρ c) (Proc.devRef .tc main_v73) = _
  after_results
  rw [keep_arg7_0_8 m ρ c]
  rfl

theorem at9_v58 (c : Dev nD) : W9 m ρ c (Proc.devRef .tc main_v58) = Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (keep_v58_7_9 m ρ c).trans (at7_v58 m ρ c)

theorem at10_v74 (c : Dev nD) : W10 m ρ c (Proc.devRef .tc main_v74) = Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 3).trans ?_
  rw [RegionValue.final5 (V9 m ρ) c]
  rw [show V9 m ρ c main_v72 = _ from at9_v72 m ρ c,
    show V9 m ρ c main_v73 = _ from at9_v73 m ρ c,
    show V9 m ρ c main_v58 = _ from at9_v58 m ρ c]
  exact (Cert.ReferenceIdeal.RefValue.v83_eq _ _ _ _ _ _ _ _ _).symm

/-! ## The output layer -/

theorem at11_v75 (c : Dev nD) : W11 m ρ c (Proc.devRef .tc main_v75) = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W11_arr m ρ c 2).trans ?_
  rw [RegionValue.final6 (V10 m ρ) c]
  rw [show V10 m ρ c main_v74 = _ from at10_v74 m ρ c,
    show V10 m ρ c main_arg8 = _ from keep_arg8_0_10 m ρ c]
  exact (Cert.ReferenceIdeal.RefValue.v84_eq _ _ _ _ _ _ _ _ _).symm

set_option maxHeartbeats 4000000 in
theorem at12_v88 (c : Dev nD) : W12 m ρ c (Proc.devRef .tc main_v88) = Cert.ReferenceIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps7 (W11 m ρ c) (Proc.devRef .tc main_v88) = _
  after_results_simp
  rw [keep_v3_1_11 m ρ c, keep_v6_1_11 m ρ c, keep_v26_1_11 m ρ c, at1_v3 m ρ c, at1_v6 m ρ c, at1_v26 m ρ c, at11_v75 m ρ c]
  rfl

theorem at12_v74 (c : Dev nD) : W12 m ρ c (Proc.devRef .tc main_v74) = Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (keep_v74_10_12 m ρ c).trans (at10_v74 m ρ c)

theorem at13_v89 (c : Dev nD) : W13 m ρ c (Proc.devRef .tc main_v89) = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) := by
  refine (W13_arr m ρ c 2).trans ?_
  rw [RegionValue.final7 (V12 m ρ) c]
  rw [show V12 m ρ c main_v74 = _ from at12_v74 m ρ c,
    show V12 m ρ c main_arg10 = _ from keep_arg10_0_12 m ρ c]
  exact (Cert.ReferenceIdeal.RefValue.v101_eq _ _ _ _ _ _ _ _ _).symm

theorem at14_v90 (c : Dev nD) : W14 m ρ c (Proc.devRef .tc main_v90) = shapeCast S1x64 (m ((c : Thread nD τ).loc main_arg9)) shapeCasts_S64_S1x64 := by
  show StableHlo.after hostOps8 (W13 m ρ c) (Proc.devRef .tc main_v90) = _
  after_results
  rw [keep_arg9_0_13 m ρ c]
  rfl

theorem at14_v88 (c : Dev nD) : W14 m ρ c (Proc.devRef .tc main_v88) = Cert.ReferenceIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (keep_v88_12_14 m ρ c).trans (at12_v88 m ρ c)
theorem at14_v89 (c : Dev nD) : W14 m ρ c (Proc.devRef .tc main_v89) = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) :=
  (keep_v89_13_14 m ρ c).trans (at13_v89 m ρ c)

/-- The result buffer at the end of the run holds the reference's result of the same arguments. -/
theorem at15_v91 (c : Dev nD) : W15 m ρ c (Proc.devRef .tc main_v91) = Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W15_arr m ρ c 3).trans ?_
  rw [RegionValue.final8 (V14 m ρ) c]
  rw [show V14 m ρ c main_v88 = _ from at14_v88 m ρ c,
    show V14 m ρ c main_v90 = _ from at14_v90 m ρ c,
    show V14 m ρ c main_v89 = _ from at14_v89 m ρ c]
  exact (Cert.ReferenceIdeal.RefValue.v102_eq _ _ _ _ _ _ _ _ _ _ _ _).symm

end Cert.KernelIdeal.RunValue

end
-- ==== Proof.lean ====
/-
  The kernel program — four graph-convolution layers whose dense parts run as nine pipelined calls, the gathers and
  scatter-adds of the message passing as host operations between them — against its plain reference, over the
  extended reals.  Both programs compute, from the same arguments, the same composition: the edge lists with their
  self-loops, the degrees `deg` and the edge coefficients `deg^(-1/2)[src] · deg^(-1/2)[dst]`; then per layer the
  projection `x · W`, the gather of its rows by source, their scaling by the coefficients, the scatter-add into the
  destination rows, and the combination `conv + b + x` with the residual (clamped at zero in the hidden layers; in the
  output layer the residual is itself a projection).  The kernel's projections contract each 5000-row block against
  the whole weight matrix into a zero accumulator, which at the extended reals is the reference's contraction entry
  by entry; its combinations add the same three terms in the same order; the host operations in between are the
  reference's own.  So the two results are one function of the arguments, stage by stage, and no law of the
  extended reals beyond `0 + s = s` is used: the precondition is never opened.
  The three frames are the generated ones (the reference's is its run with the result dropped); the idealized kernel
  program is the kernel program's own text read over the extended reals, so the idealization claim has no conjunct.
-/
import proofs.«104301_j82197084111386_1_alg».proof.Defs
import proofs.«104301_j82197084111386_1_alg».proof.Proof.Gen.Kernel
import proofs.«104301_j82197084111386_1_alg».proof.Proof.Gen.Kernel.Skeleton
import proofs.«104301_j82197084111386_1_alg».proof.Proof.Gen.Kernel.Launch
import proofs.«104301_j82197084111386_1_alg».proof.Proof.Gen.Kernel.Points
import proofs.«104301_j82197084111386_1_alg».proof.Proof.Gen.Kernel.Frame
import proofs.«104301_j82197084111386_1_alg».proof.Proof.Gen.KernelIdeal
import proofs.«104301_j82197084111386_1_alg».proof.Proof.Gen.KernelIdeal.Skeleton
import proofs.«104301_j82197084111386_1_alg».proof.Proof.Gen.KernelIdeal.Launch
import proofs.«104301_j82197084111386_1_alg».proof.Proof.Gen.KernelIdeal.Points
import proofs.«104301_j82197084111386_1_alg».proof.Proof.Gen.KernelIdeal.Frame
import proofs.«104301_j82197084111386_1_alg».proof.Proof.Gen.ReferenceIdeal
import proofs.«104301_j82197084111386_1_alg».proof.Proof.Gen.Pre_finite_inputs
import proofs.«104301_j82197084111386_1_alg».proof.Proof.Gen.ReferenceIdeal.Run
import proofs.«104301_j82197084111386_1_alg».proof.Proof.Gen.ReferenceIdeal.Read
import proofs.«104301_j82197084111386_1_alg».proof.Proof.KRun
import proofs.«104301_j82197084111386_1_alg».proof.Proof.KValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the reference's result of those arguments in
    their result buffers: the kernel program by the run read boundary by boundary, the reference by its own run. -/
theorem algebraic : Cert.algebraic_KernelIdeal_ReferenceIdeal := by
  intro m ρ m' ρ' _ hagree
  refine ⟨fun c => Cert.ReferenceIdeal.Read.val_main_v102 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.RunValue.at15_v91 m ρ c), (h c).2⟩)
      (Cert.KernelIdeal.RunValue.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v102_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
